-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S10000x1000 : Shape := ⟨2, ![10000, 1000]⟩
abbrev S1000 : Shape := ⟨1, ![1000]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S10000x1000 : S_.BroadcastsInDim S10000x1000 (![] : Fin 0 → Fin S10000x1000.rank)
  reducesTo_S10000x1000_S_d0_1 : S10000x1000.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S4096x10000 .f32) (main_arg1 : FVec F S10000x1000 .f32) (main_arg2 : FVec F S1000 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S10000x1000 .f32 := Host.absf main_arg1
  let main_cst_0 : FVec F S_ .f32 := constant S_ .f32 0x7F800000#32
  let main_v5 : FVec F S10000x1000 .f32 := broadcastInDim S10000x1000 ![] bcast_S_S10000x1000 main_cst_0
  let main_v6 : IVec S10000x1000 1 := cmpf .olt main_v4 main_v5
  let main_c_1 : IVec S_ 1 := constantI S_ 1 1#1
  let main_v7 : IVec S_ 1 := (fun x v => Host.reduce IntOp.andi x v reducesTo_S10000x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S4096x10000 : Shape := ⟨2, ![4096, 10000]⟩
abbrev S10000x1000 : Shape := ⟨2, ![10000, 1000]⟩
abbrev S1000 : Shape := ⟨1, ![1000]⟩
abbrev S100x100x1000 : Shape := ⟨3, ![100, 100, 1000]⟩
abbrev S10x100x1000 : Shape := ⟨3, ![10, 100, 1000]⟩
abbrev S10x1000 : Shape := ⟨2, ![10, 1000]⟩
abbrev S10x1x1000 : Shape := ⟨3, ![10, 1, 1000]⟩
abbrev S10x100 : Shape := ⟨2, ![10, 100]⟩
abbrev S10x100x1 : Shape := ⟨3, ![10, 100, 1]⟩
abbrev S1x1000 : Shape := ⟨2, ![1, 1000]⟩
abbrev S4096x1000 : Shape := ⟨2, ![4096, 1000]⟩
abbrev S128x10000 : Shape := ⟨2, ![128, 10000]⟩
abbrev S128x1000 : Shape := ⟨2, ![128, 1000]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x10000, .f32⟩
  | .hbm, ⟨1, _⟩ => ⟨S10000x1000, .f32⟩
  | .hbm, ⟨2, _⟩ => ⟨S1000, .f32⟩
  | .hbm, ⟨3, _⟩ => ⟨S100x100x1000, .f32⟩
  | .hbm, ⟨4, _⟩ => ⟨S100x100x1000, .bf16⟩
  | .hbm, ⟨5, _⟩ => ⟨S10000x1000, .bf16⟩
  | .hbm, ⟨6, _⟩ => ⟨S1x1000, .f32⟩
  | .hbm, ⟨7, _⟩ => ⟨S4096x1000, .f32⟩
  | .local _ .vmem, ⟨0, _⟩ => ⟨S10x100x1000, .f32⟩
  | .local _ .vmem, ⟨1, _⟩ => ⟨S10x100x1000, .f32⟩
  | .local _ .vmem, ⟨2, _⟩ => ⟨S10x100x1000, .bf16⟩
  | .local _ .vmem, ⟨3, _⟩ => ⟨S10x100x1000, .bf16⟩
  | .local _ .vmem, ⟨4, _⟩ => ⟨S128x10000, .f32⟩
  | .local _ .vmem, ⟨5, _⟩ => ⟨S128x10000, .f32⟩
  | .local _ .vmem, ⟨6, _⟩ => ⟨S10000x1000, .bf16⟩
  | .local _ .vmem, ⟨7, _⟩ => ⟨S1x1000, .f32⟩
  | .local _ .vmem, ⟨8, _⟩ => ⟨S128x1000, .f32⟩
  | .local _ .vmem, ⟨9, _⟩ => ⟨S128x1000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x100x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x100x1000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S10000x1000_S100x100x1000 : S10000x1000.ShapeCasts S100x100x1000
  inb_S10x100x1000_S10x100x1000_0_0_0 : ∀ a, (![0, 0, 0] : Fin 3 → Nat) a + S10x100x1000.size a ≤ S10x100x1000.size a
  h_S10x100x1000 : 0 < S10x100x1000.numel
  shapeCasts_S10x100x1000_S10x100x1000 : S10x100x1000.ShapeCasts S10x100x1000
  reduces_S10x100x1000_S10x1000 : S10x100x1000.Reduces [1] S10x1000
  shapeCasts_S10x1000_S10x1x1000 : S10x1000.ShapeCasts S10x1x1000
  broadcasts_S10x1x1000_S10x100x1000 : S10x1x1000.Broadcasts S10x100x1000
  reduces_S10x100x1000_S10x100 : S10x100x1000.Reduces [2] S10x100
  shapeCasts_S10x100_S10x100x1 : S10x100.ShapeCasts S10x100x1
  broadcasts_S10x100x1_S10x100x1000 : S10x100x1.Broadcasts S10x100x1000
  bitsLt_bf16_f32 : FTy.bits .bf16 < FTy.bits .f32
  packedbf16_S10x100x1000_S10x100x1000_0_0_0 : (Rect.unit (s := S10x100x1000) ![0, 0, 0] S10x100x1000.size inb_S10x100x1000_S10x100x1000_0_0_0).PackedRows (EltTy.packing .bf16)
  shapeCasts_S100x100x1000_S10000x1000 : S100x100x1000.ShapeCasts S10000x1000
  shapeCasts_S1000_S1x1000 : S1000.ShapeCasts S1x1000
  inb_S128x10000_S128x10000_0_0 : ∀ a, (![0, 0] : Fin 2 → Nat) a + S128x10000.size a ≤ S128x10000.size a
  h_S128x10000 : 0 < S128x10000.numel
  inb_S10000x1000_S10000x1000_0_0 : ∀ a, (![0, 0] : Fin 2 → Nat) a + S10000x1000.size a ≤ S10000x1000.size a
  h_S10000x1000 : 0 < S10000x1000.numel
  shapeCasts_S10000x1000_S10000x1000 : S10000x1000.ShapeCasts S10000x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S128x1000 : S1x1000.Broadcasts S128x1000
  reduces_S128x1000_S128 : S128x1000.Reduces [1] S128
  shapeCasts_S128_S128x1 : S128.ShapeCasts S128x1
  broadcasts_S128x1_S128x1000 : S128x1.Broadcasts S128x1000
  inb_S128x1000_S128x1000_0_0 : ∀ a, (![0, 0] : Fin 2 → Nat) a + S128x1000.size a ≤ S128x1000.size a
  h_S128x1000 : 0 < S128x1000.numel
  dot_S128x10000_S10000x1000_S128x1000_1_0_0_1_n_n_wf : DotDims.WF S128x10000 S10000x1000 S128x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x100x1000.size a ≤ S100x100x1000.size a
  hwx0_0 : ∀ i : grid0.Coords, EltTy.bits .f32 = 32 ∨ (Rect.block (s := S100x100x1000) S10x100x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x100x1000.size a ≤ S100x100x1000.size a
  hwx0_1 : ∀ i : grid0.Coords, EltTy.bits .bf16 = 32 ∨ (Rect.block (s := S100x100x1000) S10x100x1000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10000.size a ≤ S4096x10000.size a
  hwx1_0 : ∀ i : grid1.Coords, EltTy.bits .f32 = 32 ∨ (Rect.block (s := S4096x10000) S128x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x1000.size a ≤ S10000x1000.size a
  hwx1_1 : ∀ i : grid1.Coords, EltTy.bits .bf16 = 32 ∨ (Rect.block (s := S10000x1000) S10000x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1000.size a ≤ S4096x1000.size a
  hwx1_3 : ∀ i : grid1.Coords, EltTy.bits .f32 = 32 ∨ (Rect.block (s := S4096x1000) S128x1000.size (cc1_transform_3 i) (hinb1_3 i)).WholeWords (EltTy.packing .f32)

variable [Facts₀]

def dot_S128x10000_S10000x1000_S128x1000_1_0_0_1_n_n : DotDims S128x10000 S10000x1000 S128x1000 where
  lhsContracting := [1]
  rhsContracting := [0]
  lhsNonContracting := [0]
  rhsNonContracting := [1]
  lhsBatch := []
  rhsBatch := []
  wf := dot_S128x10000_S10000x1000_S128x1000_1_0_0_1_n_n_wf

abbrev win0_0 : Pipeline.Window sig grid0 :=
  Pipeline.Window.ofSpec (Memref.whole main_v0) S10x100x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10x100x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x1000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x10000 : Shape := ⟨2, ![4096, 10000]⟩
abbrev S10000x1000 : Shape := ⟨2, ![10000, 1000]⟩
abbrev S1000 : Shape := ⟨1, ![1000]⟩
abbrev S100x100x1000 : Shape := ⟨3, ![100, 100, 1000]⟩
abbrev S_ : Shape := ⟨0, ![]⟩
abbrev S100x1000 : Shape := ⟨2, ![100, 1000]⟩
abbrev S100x1x1000 : Shape := ⟨3, ![100, 1, 1000]⟩
abbrev S4096x1000 : Shape := ⟨2, ![4096, 1000]⟩
abbrev S1x1000 : Shape := ⟨2, ![1, 1000]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S10000x1000, .f32⟩
  | .hbm, ⟨2, _⟩ => ⟨S1000, .f32⟩
  | .hbm, ⟨3, _⟩ => ⟨S100x100x1000, .f32⟩
  | .hbm, ⟨4, _⟩ => ⟨S_, .f32⟩
  | .hbm, ⟨5, _⟩ => ⟨S100x1000, .f32⟩
  | .hbm, ⟨6, _⟩ => ⟨S_, .f32⟩
  | .hbm, ⟨7, _⟩ => ⟨S100x1000, .f32⟩
  | .hbm, ⟨8, _⟩ => ⟨S100x1000, .f32⟩
  | .hbm, ⟨9, _⟩ => ⟨S100x1x1000, .f32⟩
  | .hbm, ⟨10, _⟩ => ⟨S100x100x1000, .f32⟩
  | .hbm, ⟨11, _⟩ => ⟨S100x100x1000, .f32⟩
  | .hbm, ⟨12, _⟩ => ⟨S100x100x1000, .f32⟩
  | .hbm, ⟨13, _⟩ => ⟨S_, .f32⟩
  | .hbm, ⟨14, _⟩ => ⟨S100x1000, .f32⟩
  | .hbm, ⟨15, _⟩ => ⟨S100x1x1000, .f32⟩
  | .hbm, ⟨16, _⟩ => ⟨S100x100x1000, .f32⟩
  | .hbm, ⟨17, _⟩ => ⟨S100x100x1000, .f32⟩
  | .hbm, ⟨18, _⟩ => ⟨S_, .f32⟩
  | .hbm, ⟨19, _⟩ => ⟨S100x100x1000, .f32⟩
  | .hbm, ⟨20, _⟩ => ⟨S100x100x1000, .f32⟩
  | .hbm, ⟨21, _⟩ => ⟨S100x100x1000, .f32⟩
  | .hbm, ⟨22, _⟩ => ⟨S10000x1000, .f32⟩
  | .hbm, ⟨23, _⟩ => ⟨S4096x1000, .f32⟩
  | .hbm, ⟨24, _⟩ => ⟨S1x1000, .f32⟩
  | .hbm, ⟨25, _⟩ => ⟨S4096x1000, .f32⟩
  | .hbm, ⟨26, _⟩ => ⟨S4096x1000, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x1000, .f32⟩
  | .hbm, ⟨34, _⟩ => ⟨S4096x1000, .f32⟩
  | .hbm, ⟨35, _⟩ => ⟨S4096x1000, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1000, .f32⟩
  | .hbm, ⟨40, _⟩ => ⟨S4096x1000, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  shapeCasts_S10000x1000_S100x100x1000 : S10000x1000.ShapeCasts S100x100x1000
  reducesTo_S100x100x1000_S100x1000_d1 : S100x100x1000.ReducesTo [1] S100x1000
  h_S_ : 0 < S_.numel
  bcast_S_S100x1000 : S_.BroadcastsInDim S100x1000 (![] : Fin 0 → Fin S100x1000.rank)
  bcast_S100x1000_S100x1x1000_0_2 : S100x1000.BroadcastsInDim S100x1x1000 (![0, 2] : Fin 2 → Fin S100x1x1000.rank)
  bcast_S100x1x1000_S100x100x1000_0_1_2 : S100x1x1000.BroadcastsInDim S100x100x1000 (![0, 1, 2] : Fin 3 → Fin S100x100x1000.rank)
  bcast_S_S100x100x1000 : S_.BroadcastsInDim S100x100x1000 (![] : Fin 0 → Fin S100x100x1000.rank)
  shapeCasts_S100x100x1000_S10000x1000 : S100x100x1000.ShapeCasts S10000x1000
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  reducesTo_S4096x1000_S4096_d1 : S4096x1000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  dot_S4096x10000_S10000x1000_S4096x1000_1_0_0_1_n_n_wf : DotDims.WF S4096x10000 S10000x1000 S4096x1000 [1] [0] [0] [1] [] []

variable [Facts₀]

def dot_S4096x10000_S10000x1000_S4096x1000_1_0_0_1_n_n : DotDims S4096x10000 S10000x1000 S4096x1000 where
  lhsContracting := [1]
  rhsContracting := [0]
  lhsNonContracting := [0]
  rhsNonContracting := [1]
  lhsBatch := []
  rhsBatch := []
  wf := dot_S4096x10000_S10000x1000_S4096x1000_1_0_0_1_n_n_wf

class Facts : Prop extends Facts₀ where

variable [Facts]
-- ==== Proof.KRun.lean ====
/-
  The idealized kernel's run with its result named. The program is two pipelined regions among host reshapes; its
  run ends with every unscoped buffer at the contents the last region leaves, so the result array is read there:
  it is the array that the second region's write-backs leave behind, block after block. The argument arrays end as
  launched.
-/
import proofs.«118734_j25331717111832_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the second
    region's write-backs leave, and the three argument arrays are unchanged. -/
theorem run_named : θ_run defs (onTc (τ := τ) (main (F := F))) ⟨m, fun _ => 0, ρ⟩ (fun r => ∀ c : Dev nD,
      r.2.mem ((c.tc : Thread nD τ).loc main_v4) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v4 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KValue

end
-- ==== Proof.Spec.lean ====
/-
  The function both programs compute, index by index, on the extended reals.

  A table of 10000 rows (100 groups of 100 rows) and 1000 columns is turned, column by column inside each group, into
  `log (softmax + ε)`: the softmax runs over the 100 rows of the group. A batch of 4096 row vectors is multiplied
  into the table, a bias row is added, and each of the 4096 rows of logits is passed through a softmax over its 1000
  columns. The reference uses the table as it is; the kernel first subtracts from every table row the mean of that row
  over the columns. The two logit rows then differ by a number that does not depend on the column, and a softmax does
  not see such a shift.
-/
import Idealize.ShloMosaic.PureOps.Ideal
import Idealize.ShloMosaic.PureOps.Ideal.Laws
import Idealize.ShloMosaic.Lib.ValueIdx

noncomputable section

namespace Cert.GroupSoftmax

open Idealize.ShloMosaic Idealize.ShloMosaic.ValueIdx

/-- The float words the two programs share, as extended reals: minus infinity, the ε inside the logarithm, 1000. -/
def negInf : EReal := Ideal.ofBits .f32 0xFF800000#32
def eps : EReal := Ideal.ofBits .f32 0x2B8CBCCC#32
def thousand : EReal := Ideal.ofBits .f32 0x447A0000#32

/-- The maximum of finitely many extended reals, folded from minus infinity. -/
def maxOver {n : ℕ} (z : Fin n → EReal) : EReal := (Finset.univ : Finset (Fin n)).fold max negInf z

/-- The softmax of a finite family at one member: `e^(z c − max z) / Σ_c' e^(z c' − max z)`. -/
def softmaxAt {n : ℕ} (z : Fin n → EReal) (c : Fin n) : EReal :=
  Ideal.div (Ideal.exp (z c - maxOver z)) (∑ c' : Fin n, Ideal.exp (z c' - maxOver z))

/-- `log (softmax + ε)` of one column of one group (100 rows), at row `r`. -/
def logTheta (w : Fin 100 → EReal) (r : Fin 100) : EReal := Ideal.log (softmaxAt w r + eps)

abbrev Mat (a b : ℕ) := (⟨2, ![a, b]⟩ : Shape).Idx → EReal
abbrev Row (a : ℕ) := (⟨1, ![a]⟩ : Shape).Idx → EReal

/-- Row `100 g + r'` of the weights, for `r'` running over group `g`, at column `c`. -/
def groupCol (W : Mat 10000 1000) (g : Fin 100) (c : Fin 1000) (r' : Fin 100) : EReal :=
  W (ix2 (⟨g.val * 100 + r'.val, by have := g.isLt; have := r'.isLt; omega⟩ : Fin 10000) c)

/-- The table: row `k` lies in group `k / 100` at place `k % 100`. -/
def table (W : Mat 10000 1000) (k : Fin 10000) (c : Fin 1000) : EReal :=
  logTheta (groupCol W (⟨k.val / 100, by have := k.isLt; omega⟩ : Fin 100) c) (⟨k.val % 100, by omega⟩ : Fin 100)

/-- The kernel's table: every row less its mean over the 1000 columns. -/
def centered (W : Mat 10000 1000) (k : Fin 10000) (c : Fin 1000) : EReal :=
  table W k c - Ideal.div (∑ c' : Fin 1000, table W k c') thousand

/-- One row of logits: the batch row times a table, plus the bias. -/
def logits (T : Fin 10000 → Fin 1000 → EReal) (x : Mat 4096 10000) (bias : Row 1000) (b : Fin 4096) (c : Fin 1000) : EReal :=
  (∑ k : Fin 10000, x (ix2 b k) * T k c) + bias (ix1 c)

/-- The result over a table `T`: the softmax of each row of logits. -/
def outOver (T : Fin 10000 → Fin 1000 → EReal) (x : Mat 4096 10000) (bias : Row 1000) : Mat 4096 1000 :=
  fun i => softmaxAt (logits T x bias (⟨(i 0).val, idx2_lt0 i⟩ : Fin 4096)) (⟨(i 1).val, idx2_lt1 i⟩ : Fin 1000)

/-- What the reference computes, and what the kernel computes. -/
def refOut (x : Mat 4096 10000) (W : Mat 10000 1000) (bias : Row 1000) : Mat 4096 1000 := outOver (table W) x bias
def kerOut (x : Mat 4096 10000) (W : Mat 10000 1000) (bias : Row 1000) : Mat 4096 1000 := outOver (centered W) x bias

theorem outOver_ix2 (T : Fin 10000 → Fin 1000 → EReal) (x : Mat 4096 10000) (bias : Row 1000) (b : Fin 4096) (c : Fin 1000) :
    outOver T x bias (ix2 b c) = softmaxAt (logits T x bias b) c := rfl

/-- Minus infinity's word is the bottom of the extended reals, so a maximum against it is the other side. -/
theorem negInf_eq_bot : negInf = ⊥ := by
  unfold negInf; simp [Ideal.ofBits, Ideal.ieee]

theorem max_negInf (y : EReal) : max negInf y = y := by rw [negInf_eq_bot]; exact max_eq_right bot_le

end Cert.GroupSoftmax

end
-- ==== Proof.KSpec.lean ====
/-
  The kernel's two stages as functions of whole arrays, index by index.

  Stage one turns the weights, seen as 100 groups of 100 rows and 1000 columns, into the centred table: at group `g`,
  row `r`, column `c` the logarithm of (the softmax of column `c` over the group's rows, plus ε), less the mean of
  those logarithms over the columns of row `r`. Stage two multiplies the batch into a table, adds a bias row and takes
  the softmax of each row of logits.
-/
import proofs.«118734_j25331717111832_2_alg».proof.Proof.Spec

noncomputable section

namespace Cert.GroupSoftmax

open Idealize.ShloMosaic Idealize.ShloMosaic.ValueIdx

/-- A block of `a` groups at group `g`, row `r`, column `c`: `log (softmax + ε)` of column `c` over the group's rows, less
    the mean over the columns of row `r`'s such logarithms. -/
def centeredBlock {a : ℕ} (w : (⟨3, ![a, 100, 1000]⟩ : Shape).Idx → EReal) (g : Fin a) (r : Fin 100) (c : Fin 1000) : EReal :=
  logTheta (fun r' : Fin 100 => w (ix3 g r' c)) r
    - Ideal.div (∑ c' : Fin 1000, logTheta (fun r' : Fin 100 => w (ix3 g r' c')) r) thousand

/-- It reads the array only in group `g`. -/
theorem centeredBlock_congr {a a' : ℕ} (w : (⟨3, ![a, 100, 1000]⟩ : Shape).Idx → EReal)
    (w' : (⟨3, ![a', 100, 1000]⟩ : Shape).Idx → EReal) (g : Fin a) (g' : Fin a')
    (h : ∀ (r : Fin 100) (c : Fin 1000), w (ix3 g r c) = w' (ix3 g' r c)) (r : Fin 100) (c : Fin 1000) :
    centeredBlock w g r c = centeredBlock w' g' r c := by
  unfold centeredBlock
  simp only [h]

/-- Stage one over the whole array of 100 groups. -/
def stage1 (w : (⟨3, ![100, 100, 1000]⟩ : Shape).Idx → EReal) : (⟨3, ![100, 100, 1000]⟩ : Shape).Idx → EReal :=
  fun i => centeredBlock w (⟨(i 0).val, (i 0).isLt⟩ : Fin 100) (⟨(i 1).val, (i 1).isLt⟩ : Fin 100) (⟨(i 2).val, (i 2).isLt⟩ : Fin 1000)

theorem stage1_ix3 (w : (⟨3, ![100, 100, 1000]⟩ : Shape).Idx → EReal) (g r : Fin 100) (c : Fin 1000) :
    stage1 w (ix3 g r c) = centeredBlock w g r c := rfl

/-- Row `p` of a batch of `a` rows against a table, plus the bias row: the logits of that row. -/
def rowLogits {a : ℕ} (x : Mat a 10000) (T : Mat 10000 1000) (bv : Mat 1 1000) (p : Fin a) (c : Fin 1000) : EReal :=
  (∑ k : Fin 10000, x (ix2 p k) * T (ix2 k c)) + bv (ix2 (0 : Fin 1) c)

/-- It reads the batch only in row `p`. -/
theorem rowLogits_congr {a a' : ℕ} (x : Mat a 10000) (x' : Mat a' 10000) (T : Mat 10000 1000) (bv : Mat 1 1000) (p : Fin a) (p' : Fin a')
    (h : ∀ k : Fin 10000, x (ix2 p k) = x' (ix2 p' k)) : rowLogits x T bv p = rowLogits x' T bv p' := by
  funext c
  unfold rowLogits
  simp only [h]

/-- Stage two over the whole batch. -/
def stage2 (x : Mat 4096 10000) (T : Mat 10000 1000) (bv : Mat 1 1000) : Mat 4096 1000 :=
  fun i => softmaxAt (rowLogits x T bv (⟨(i 0).val, idx2_lt0 i⟩ : Fin 4096)) (⟨(i 1).val, idx2_lt1 i⟩ : Fin 1000)

theorem stage2_ix2 (x : Mat 4096 10000) (T : Mat 10000 1000) (bv : Mat 1 1000) (b : Fin 4096) (c : Fin 1000) :
    stage2 x T bv (ix2 b c) = softmaxAt (rowLogits x T bv b) c := rfl

end Cert.GroupSoftmax

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.Pay0.lean ====
/-
  The first kernel's body at an index. Its block is ten groups of 100 rows and 1000 columns. For the entry at group `g`,
  row `r`, column `c` the body takes the softmax of column `c` over the group's 100 rows, adds ε and takes the
  logarithm; then it subtracts the mean of that logarithm over the 1000 columns of row `r`.
-/
import proofs.«118734_j25331717111832_2_alg».proof.Proof.Gen.KernelIdeal.Skeleton
import proofs.«118734_j25331717111832_2_alg».proof.Proof.KSpec
import proofs.«118734_j25331717111832_2_alg».proof.Proof.LibKeepdims

noncomputable section

namespace Cert.KernelIdeal.Pay

open Idealize.ShloMosaic Idealize.ShloMosaic.ValueIdx Cert.KernelIdeal Cert.KernelIdeal.Gen Cert.LibKeepdims Cert.GroupSoftmax

/-- The maximum over a group's rows, put back as a unit axis and spread over the rows again. -/
theorem groupMax_apply (v1 : FVec Ideal S10x100x1000 .f32) (g : Fin 10) (r : Fin 100) (c : Fin 1000) :
    broadcastTo S10x100x1000 (shapeCast S10x1x1000 (multiReduction .maximumf [1] S10x1000 v1 0xFF800000#32 reduces_S10x100x1000_S10x1000 (.inl rfl) rfl) shapeCasts_S10x1000_S10x1x1000) broadcasts_S10x1x1000_S10x100x1000 (ix3 g r c)
      = maxOver (fun r' : Fin 100 => v1 (ix3 g r' c)) := by
  refine (broadcastTo_a1c_abc_apply _ _ g r c).trans ?_
  refine (shapeCast_ac_a1c_apply _ _ g 0 c).trans ?_
  exact max_mid3_apply v1 _ _ _ _ g c

/-- The sum over a group's rows, put back as a unit axis and spread over the rows again. -/
theorem groupSum_apply (v6 : FVec Ideal S10x100x1000 .f32) (g : Fin 10) (r : Fin 100) (c : Fin 1000) :
    broadcastTo S10x100x1000 (shapeCast S10x1x1000 (multiReduction .add [1] S10x1000 v6 0x00000000#32 reduces_S10x100x1000_S10x1000 (.inl rfl) rfl) shapeCasts_S10x1000_S10x1x1000) broadcasts_S10x1x1000_S10x100x1000 (ix3 g r c)
      = ∑ r' : Fin 100, v6 (ix3 g r' c) := by
  refine (broadcastTo_a1c_abc_apply _ _ g r c).trans ?_
  refine (shapeCast_ac_a1c_apply _ _ g 0 c).trans ?_
  exact sum_mid3_apply v6 _ _ _ _ g c

/-- The mean over a row's columns — the sum divided by the word of 1000 — spread over the columns again. -/
theorem rowMean_apply (v13 : FVec Ideal S10x100x1000 .f32) (g : Fin 10) (r : Fin 100) (c : Fin 1000) :
    broadcastTo S10x100x1000 (divf (shapeCast S10x100x1 (multiReduction .add [2] S10x100 v13 0x00000000#32 reduces_S10x100x1000_S10x100 (.inl rfl) rfl) shapeCasts_S10x100_S10x100x1)
        (broadcast S10x100x1 (Scalar.ofBits .f32 0x447A0000#32))) broadcasts_S10x100x1_S10x100x1000 (ix3 g r c)
      = Ideal.div (∑ c' : Fin 1000, v13 (ix3 g r c')) thousand := by
  refine (broadcastTo_ab1_abc_apply _ _ g r c).trans ?_
  show Ideal.div (shapeCast S10x100x1 (multiReduction .add [2] S10x100 v13 0x00000000#32 reduces_S10x100x1000_S10x100 (.inl rfl) rfl) shapeCasts_S10x100_S10x100x1 (ix3 g r (0 : Fin 1))) thousand = _
  refine congrArg (fun y => Ideal.div y thousand) ?_
  refine (shapeCast_ab_ab1_apply _ _ g r 0).trans ?_
  exact sum_last3_apply v13 _ _ _ _ g r

/-- `log (softmax over the group's rows + ε)` of a block, at an index. -/
theorem logSoftmax_apply (v1 : FVec Ideal S10x100x1000 .f32) (g : Fin 10) (r : Fin 100) (c : Fin 1000) :
    log (addf
        (divf
          (exp (subf v1 (broadcastTo S10x100x1000 (shapeCast S10x1x1000 (multiReduction .maximumf [1] S10x1000 v1 0xFF800000#32 reduces_S10x100x1000_S10x1000 (.inl rfl) rfl) shapeCasts_S10x1000_S10x1x1000) broadcasts_S10x1x1000_S10x100x1000)))
          (broadcastTo S10x100x1000 (shapeCast S10x1x1000 (multiReduction .add [1] S10x1000
            (exp (subf v1 (broadcastTo S10x100x1000 (shapeCast S10x1x1000 (multiReduction .maximumf [1] S10x1000 v1 0xFF800000#32 reduces_S10x100x1000_S10x1000 (.inl rfl) rfl) shapeCasts_S10x1000_S10x1x1000) broadcasts_S10x1x1000_S10x100x1000)))
            0x00000000#32 reduces_S10x100x1000_S10x1000 (.inl rfl) rfl) shapeCasts_S10x1000_S10x1x1000) broadcasts_S10x1x1000_S10x100x1000))
        (broadcast S10x100x1000 (Scalar.ofBits .f32 0x2B8CBCCC#32))) (ix3 g r c)
      = logTheta (fun r' : Fin 100 => v1 (ix3 g r' c)) r := by
  have hE : ∀ r' : Fin 100,
      exp (subf v1 (broadcastTo S10x100x1000 (shapeCast S10x1x1000 (multiReduction .maximumf [1] S10x1000 v1 0xFF800000#32 reduces_S10x100x1000_S10x1000 (.inl rfl) rfl) shapeCasts_S10x1000_S10x1x1000) broadcasts_S10x1x1000_S10x100x1000)) (ix3 g r' c)
        = Ideal.exp (v1 (ix3 g r' c) - maxOver (fun r'' : Fin 100 => v1 (ix3 g r'' c))) := fun r' => by
    rw [exp_apply, subf_apply, groupMax_apply]
  rw [log_apply, addf_apply, divf_apply, groupSum_apply, hE r]
  unfold logTheta softmaxAt
  refine congrArg (fun y => Ideal.log (Ideal.div (Ideal.exp (v1 (ix3 g r c) - maxOver (fun r'' : Fin 100 => v1 (ix3 g r'' c)))) y + eps)) ?_
  exact Finset.sum_congr rfl fun r' _ => hE r'

/-- Subtracting from a block the mean of each row over its columns, at an index. -/
theorem centre_apply (v13 : FVec Ideal S10x100x1000 .f32) (g : Fin 10) (r : Fin 100) (c : Fin 1000) :
    subf v13 (broadcastTo S10x100x1000 (divf (shapeCast S10x100x1 (multiReduction .add [2] S10x100 v13 0x00000000#32 reduces_S10x100x1000_S10x100 (.inl rfl) rfl) shapeCasts_S10x100_S10x100x1)
        (broadcast S10x100x1 (Scalar.ofBits .f32 0x447A0000#32))) broadcasts_S10x100x1_S10x100x1000) (ix3 g r c)
      = v13 (ix3 g r c) - Ideal.div (∑ c' : Fin 1000, v13 (ix3 g r c')) thousand := by
  rw [subf_apply, rowMean_apply]

/-- THE BODY AT AN INDEX: the centred `log (softmax + ε)` of the loaded block. -/
theorem pay0_apply (x0 : Vec Ideal S10x100x1000 .f32) (g : Fin 10) (r : Fin 100) (c : Fin 1000) :
    k0_pay1 (F := Ideal) x0 (ix3 g r c) = centeredBlock x0 g r c := by
  unfold k0_pay1
  dsimp only
  rw [shapeCast_self, truncf_apply]
  refine (centre_apply _ g r c).trans ?_
  unfold centeredBlock
  exact congrArg₂ (fun a b => a - Ideal.div b thousand) (logSoftmax_apply x0 g r c)
    (Finset.sum_congr rfl fun c' _ => logSoftmax_apply x0 g r c')

end Cert.KernelIdeal.Pay

end
-- ==== Proof.KValue0.lean ====
/-
  The array the first region leaves. Its grid has ten points; point `t` loads groups `10 t … 10 t + 9` of the weights
  (as 100 groups of 100 rows) and writes back the same groups of the centred table, which depend only on those groups.
  The ten blocks tile the array, so the array ends as stage one of the array the region found.
-/
import proofs.«118734_j25331717111832_2_alg».proof.Proof.Gen.KernelIdeal.Frame
import proofs.«118734_j25331717111832_2_alg».proof.Proof.Pay0

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay Cert.GroupSoftmax

variable (V : (c : Dev nD) → (b : Ref sig .tc) → Buf (Elt Ideal) ((c : Thread nD τ).loc b))

theorem zero3 : (![0, 0, 0] : Fin 3 → Nat) = fun _ => 0 := funext fun a => by fin_cases a <;> rfl

/-- The printed index maps of the first region, decided over its ten points: both windows sit at block `t` of the
    group axis and at block 0 of the other two. -/
theorem index0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of stage one of the array the region found. -/
theorem flushed0_eq (c : Dev nD) (t : Fin cfg0.N) :
    (dat0 V c).flushed 1 t = ((cfg0.win 1).blk t).view.read (Elt Ideal) (stage1 (V c main_v0)) := by
  show (cfg0.win 1).cut (grid0.coords t) ((dat0 V c).after 1 t) = _
  rw [after0_1]
  unfold out0_1
  rw [View.canon_unit_zero zero3]
  simp only [View.ld_unit_zero (S := S10x100x1000) zero3]
  obtain ⟨e0, e1, e2, e3, e4, e5⟩ := index0 t
  funext j
  obtain ⟨g, r, cc, rfl⟩ : ∃ (g : Fin 10) (r : Fin 100) (cc : Fin 1000), j = ix3 g r cc := ⟨j 0, j 1, j 2, eq_ix3 j⟩
  have ht : t.val < 10 := by have h := t.isLt; have hN : cfg0.N = 10 := N_0; omega
  show k0_pay1 (iblk0 V c 0 t) (ix3 g r cc) = stage1 (V c main_v0) (((cfg0.win 1).blk t).view.emb (ix3 g r cc))
  refine (pay0_apply (iblk0 V c 0 t) g r cc).trans ?_
  have hemb : ((cfg0.win 1).blk t).view.emb (ix3 g r cc) = ix3 (⟨t.val * 10 + g.val, by omega⟩ : Fin 100) r cc := by
    funext a; apply Fin.ext
    match a with
    | ⟨0, _⟩ => show win0_1.index t (0 : Fin 3) * 10 + 1 * g.val = t.val * 10 + g.val; rw [e3]; omega
    | ⟨1, _⟩ => show win0_1.index t (1 : Fin 3) * 100 + 1 * r.val = r.val; rw [e4]; omega
    | ⟨2, _⟩ => show win0_1.index t (2 : Fin 3) * 1000 + 1 * cc.val = cc.val; rw [e5]; omega
  rw [hemb, stage1_ix3]
  refine centeredBlock_congr _ _ g _ (fun r' c' => ?_) r cc
  show V c main_v0 (((cfg0.win 0).blk t).view.emb (ix3 g r' c')) = V c main_v0 (ix3 (⟨t.val * 10 + g.val, by omega⟩ : Fin 100) r' c')
  have hin : ((cfg0.win 0).blk t).view.emb (ix3 g r' c') = ix3 (⟨t.val * 10 + g.val, by omega⟩ : Fin 100) r' c' := by
    funext a; apply Fin.ext
    match a with
    | ⟨0, _⟩ => show win0_0.index t (0 : Fin 3) * 10 + 1 * g.val = t.val * 10 + g.val; rw [e0]; omega
    | ⟨1, _⟩ => show win0_0.index t (1 : Fin 3) * 100 + 1 * r'.val = r'.val; rw [e1]; omega
    | ⟨2, _⟩ => show win0_0.index t (2 : Fin 3) * 1000 + 1 * c'.val = c'.val; rw [e2]; omega
  rw [hin]

/-- An index of the array is in point `t`'s block iff each coordinate is in the block's range on its axis. -/
theorem mem_blk0 (t : Fin cfg0.N) (i : S100x100x1000.Idx) :
    i ∈ ((cfg0.win 1).blk t).view.set ↔ ∀ a : Fin 3, win0_1.index t a * S10x100x1000.size a ≤ (i a).val ∧ (i a).val < win0_1.index t a * S10x100x1000.size a + S10x100x1000.size a := by
  show i ∈ ((View.whole main_v1).slice (win0_1.rect t)).set ↔ _
  rw [View.set_slice_whole, Rect.mem_set_unit]
  exact Iff.rfl

/-- Every index lies in the block of the point that holds its group: point `g / 10`. -/
theorem cover0 (i : S100x100x1000.Idx) : ∃ t : Fin cfg0.N, (cfg0.win 1).flush t = true ∧ i ∈ ((cfg0.win 1).blk t).view.set := by
  have hi0 : (i 0).val < 100 := (i 0).isLt
  have hi1 : (i 1).val < 100 := (i 1).isLt
  have hi2 : (i 2).val < 1000 := (i 2).isLt
  have hN : cfg0.N = 10 := N_0
  let t : Fin cfg0.N := ⟨(i 0).val / 10, by omega⟩
  obtain ⟨e0, e1, e2, e3, e4, e5⟩ := index0 t
  have ht : t.val = (i 0).val / 10 := rfl
  refine ⟨t, flush0_1 t, ?_⟩
  rw [mem_blk0]
  intro a
  match a with
  | ⟨0, _⟩ => show win0_1.index t (0 : Fin 3) * 10 ≤ (i 0).val ∧ (i 0).val < win0_1.index t (0 : Fin 3) * 10 + 10; rw [e3, ht]; omega
  | ⟨1, _⟩ => show win0_1.index t (1 : Fin 3) * 100 ≤ (i 1).val ∧ (i 1).val < win0_1.index t (1 : Fin 3) * 100 + 100; rw [e4]; omega
  | ⟨2, _⟩ => show win0_1.index t (2 : Fin 3) * 1000 ≤ (i 2).val ∧ (i 2).val < win0_1.index t (2 : Fin 3) * 1000 + 1000; rw [e5]; omega

/-- THE ARRAY the first region leaves: stage one of the array it found. -/
theorem final0 (c : Dev nD) : (dat0 V c).arrAt 1 cfg0.N = stage1 (V c main_v0) :=
  (dat0 V c).arrAt_eq_of_cover 1 (stage1 (V c main_v0)) (fun t _ => flushed0_eq V c t) cover0

end Cert.KernelIdeal.KValue

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.Pay1.lean ====
/-
  The second kernel's body at an index. Its block is 128 batch rows. For row `p` and column `c` the body multiplies the
  row into the whole 10000 × 1000 table, adds the bias row, and takes the softmax of the resulting row of 1000 logits
  at `c`.
-/
import proofs.«118734_j25331717111832_2_alg».proof.Proof.Gen.KernelIdeal.Skeleton
import proofs.«118734_j25331717111832_2_alg».proof.Proof.KSpec
import proofs.«118734_j25331717111832_2_alg».proof.Proof.LibKeepdims
import proofs.«118734_j25331717111832_2_alg».proof.Proof.LibColumn

noncomputable section

namespace Cert.KernelIdeal.Pay

open Idealize.ShloMosaic Idealize.ShloMosaic.ValueIdx Cert.KernelIdeal Cert.KernelIdeal.Gen Cert.LibKeepdims Cert.GroupSoftmax

/-! ## The matrix product at an index: the sum over the 10000 table rows -/

theorem lhs_row (i : S128x1000.Idx) (q : dot_S128x10000_S10000x1000_S128x1000_1_0_0_1_n_n.contr.Idx) :
    (dot_S128x10000_S10000x1000_S128x1000_1_0_0_1_n_n.lhsIdx i q 0).val = (i 0).val := by
  unfold DotDims.lhsIdx
  rw [dif_neg (show ¬(0 : Fin S128x10000.rank) ∈ dot_S128x10000_S10000x1000_S128x1000_1_0_0_1_n_n.lhsBatch by decide), dif_pos (show (0 : Fin S128x10000.rank) ∈ dot_S128x10000_S10000x1000_S128x1000_1_0_0_1_n_n.lhsNonContracting by decide)]
  rfl
theorem lhs_contr (i : S128x1000.Idx) (q : dot_S128x10000_S10000x1000_S128x1000_1_0_0_1_n_n.contr.Idx) :
    (dot_S128x10000_S10000x1000_S128x1000_1_0_0_1_n_n.lhsIdx i q 1).val = (q ⟨0, by decide⟩).val :=
  dot_S128x10000_S10000x1000_S128x1000_1_0_0_1_n_n.lhsIdx_val_of_single rfl i q
theorem rhs_contr (i : S128x1000.Idx) (q : dot_S128x10000_S10000x1000_S128x1000_1_0_0_1_n_n.contr.Idx) :
    (dot_S128x10000_S10000x1000_S128x1000_1_0_0_1_n_n.rhsIdx i q 0).val = (q ⟨0, by decide⟩).val :=
  dot_S128x10000_S10000x1000_S128x1000_1_0_0_1_n_n.rhsIdx_val_of_single rfl i q
theorem rhs_col (i : S128x1000.Idx) (q : dot_S128x10000_S10000x1000_S128x1000_1_0_0_1_n_n.contr.Idx) :
    (dot_S128x10000_S10000x1000_S128x1000_1_0_0_1_n_n.rhsIdx i q 1).val = (i 1).val := by
  unfold DotDims.rhsIdx
  rw [dif_neg (show ¬(1 : Fin S10000x1000.rank) ∈ dot_S128x10000_S10000x1000_S128x1000_1_0_0_1_n_n.rhsBatch by decide), dif_pos (show (1 : Fin S10000x1000.rank) ∈ dot_S128x10000_S10000x1000_S128x1000_1_0_0_1_n_n.rhsNonContracting by decide)]
  rfl

/-- Into a zero accumulator the product at `(p, c)` is `Σ_k l (p, k) · r (k, c)`. -/
theorem matmul_ix (l : FVec Ideal S128x10000 .bf16) (r : FVec Ideal S10000x1000 .bf16) (p : Fin 128) (c : Fin 1000) :
    matmul dot_S128x10000_S10000x1000_S128x1000_1_0_0_1_n_n none l r (constant S128x1000 .f32 0x00000000#32) (ix2 p c)
      = ∑ k : Fin 10000, (l (ix2 p k) : EReal) * (r (ix2 k c) : EReal) := by
  simp only [matmul]
  rw [Ideal.matmul_constant_zero_apply, ← Equiv.sum_comp (contrEquiv1 dot_S128x10000_S10000x1000_S128x1000_1_0_0_1_n_n 10000 rfl rfl).symm]
  refine Finset.sum_congr rfl fun k _ => ?_
  have hk := contrEquiv1_symm_val dot_S128x10000_S10000x1000_S128x1000_1_0_0_1_n_n 10000 rfl rfl k
  have el : dot_S128x10000_S10000x1000_S128x1000_1_0_0_1_n_n.lhsIdx (ix2 p c) ((contrEquiv1 dot_S128x10000_S10000x1000_S128x1000_1_0_0_1_n_n 10000 rfl rfl).symm k) = ix2 p k := funext fun a => Fin.ext (by
    match a with
    | ⟨0, _⟩ => exact lhs_row _ _
    | ⟨1, _⟩ => exact (lhs_contr _ _).trans hk)
  have er : dot_S128x10000_S10000x1000_S128x1000_1_0_0_1_n_n.rhsIdx (ix2 p c) ((contrEquiv1 dot_S128x10000_S10000x1000_S128x1000_1_0_0_1_n_n 10000 rfl rfl).symm k) = ix2 k c := funext fun a => Fin.ext (by
    match a with
    | ⟨0, _⟩ => exact (rhs_contr _ _).trans hk
    | ⟨1, _⟩ => exact rhs_col _ _)
  rw [el, er]

/-! ## The row reductions, put back as a unit axis and spread over the columns again -/

theorem rowMax_apply (v8 : FVec Ideal S128x1000 .f32) (p : Fin 128) (c : Fin 1000) :
    broadcastTo S128x1000 (shapeCast S128x1 (multiReduction .maximumf [1] S128 v8 0xFF800000#32 reduces_S128x1000_S128 (.inl rfl) rfl) shapeCasts_S128_S128x1) broadcasts_S128x1_S128x1000 (ix2 p c)
      = maxOver (fun c' : Fin 1000 => v8 (ix2 p c')) := by
  refine (Cert.LibColumn.broadcastTo_a1_ab_apply _ _ p c).trans ?_
  refine (Cert.LibColumn.shapeCast_a_a1_apply _ _ p 0).trans ?_
  exact max_last2_apply v8 _ _ _ _ p

theorem rowSum_apply (v13 : FVec Ideal S128x1000 .f32) (p : Fin 128) (c : Fin 1000) :
    broadcastTo S128x1000 (shapeCast S128x1 (multiReduction .add [1] S128 v13 0x00000000#32 reduces_S128x1000_S128 (.inl rfl) rfl) shapeCasts_S128_S128x1) broadcasts_S128x1_S128x1000 (ix2 p c)
      = ∑ c' : Fin 1000, v13 (ix2 p c') := by
  refine (Cert.LibColumn.broadcastTo_a1_ab_apply _ _ p c).trans ?_
  refine (Cert.LibColumn.shapeCast_a_a1_apply _ _ p 0).trans ?_
  exact sum_last2_apply v13 _ _ _ _ p

/-- The bias row spread over the 128 batch rows. -/
theorem biasRow_apply (v6 : FVec Ideal S1x1000 .f32) (p : Fin 128) (c : Fin 1000) :
    broadcastTo S128x1000 v6 broadcasts_S1x1000_S128x1000 (ix2 p c) = v6 (ix2 (0 : Fin 1) c) :=
  ValueIdx.broadcastTo_1b_ab_apply v6 _ p c

/-- The softmax of each row of a block of logits, at an index. -/
theorem softmaxRow_apply (v8 : FVec Ideal S128x1000 .f32) (p : Fin 128) (c : Fin 1000) :
    divf
        (exp (subf v8 (broadcastTo S128x1000 (shapeCast S128x1 (multiReduction .maximumf [1] S128 v8 0xFF800000#32 reduces_S128x1000_S128 (.inl rfl) rfl) shapeCasts_S128_S128x1) broadcasts_S128x1_S128x1000)))
        (broadcastTo S128x1000 (shapeCast S128x1 (multiReduction .add [1] S128
          (exp (subf v8 (broadcastTo S128x1000 (shapeCast S128x1 (multiReduction .maximumf [1] S128 v8 0xFF800000#32 reduces_S128x1000_S128 (.inl rfl) rfl) shapeCasts_S128_S128x1) broadcasts_S128x1_S128x1000)))
          0x00000000#32 reduces_S128x1000_S128 (.inl rfl) rfl) shapeCasts_S128_S128x1) broadcasts_S128x1_S128x1000) (ix2 p c)
      = softmaxAt (fun c' : Fin 1000 => v8 (ix2 p c')) c := by
  have hE : ∀ c' : Fin 1000,
      exp (subf v8 (broadcastTo S128x1000 (shapeCast S128x1 (multiReduction .maximumf [1] S128 v8 0xFF800000#32 reduces_S128x1000_S128 (.inl rfl) rfl) shapeCasts_S128_S128x1) broadcasts_S128x1_S128x1000)) (ix2 p c')
        = Ideal.exp (v8 (ix2 p c') - maxOver (fun c'' : Fin 1000 => v8 (ix2 p c''))) := fun c' => by
    rw [exp_apply, subf_apply, rowMax_apply]
  rw [divf_apply, rowSum_apply, hE c]
  unfold softmaxAt
  refine congrArg (fun y => Ideal.div (Ideal.exp (v8 (ix2 p c) - maxOver (fun c'' : Fin 1000 => v8 (ix2 p c'')))) y) ?_
  exact Finset.sum_congr rfl fun c' _ => hE c'

/-- THE BODY AT AN INDEX: the softmax of row `p`'s logits at column `c`. -/
theorem pay1_apply (x0 : Vec Ideal S128x10000 .f32) (x1 : Vec Ideal S10000x1000 .bf16) (x2 : Vec Ideal S1x1000 .f32)
    (p : Fin 128) (c : Fin 1000) :
    k1_pay1 (F := Ideal) x0 x1 x2 (ix2 p c) = softmaxAt (rowLogits x0 x1 x2 p) c := by
  unfold k1_pay1
  dsimp only
  rw [shapeCast_self, shapeCast_self]
  refine (softmaxRow_apply _ p c).trans ?_
  refine congrArg (fun z => softmaxAt z c) (funext fun c' => ?_)
  rw [addf_apply, matmul_ix, biasRow_apply]
  rfl

end Cert.KernelIdeal.Pay

end
-- ==== Proof.KValue1.lean ====
/-
  The array the second region leaves. Its grid has 32 points; point `t` loads batch rows `128 t … 128 t + 127`, the whole
  table and the bias row, and writes back the softmax of those rows' logits, which depend only on those batch rows.
  The 32 blocks tile the result, so the result ends as stage two of the arrays the region found.
-/
import proofs.«118734_j25331717111832_2_alg».proof.Proof.Gen.KernelIdeal.Frame
import proofs.«118734_j25331717111832_2_alg».proof.Proof.Pay1

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay Cert.GroupSoftmax

variable (V : (c : Dev nD) → (b : Ref sig .tc) → Buf (Elt Ideal) ((c : Thread nD τ).loc b))

theorem zero2 : (![0, 0] : Fin 2 → Nat) = fun _ => 0 := funext fun a => by fin_cases a <;> rfl

/-- The printed index maps of the second region, decided over its 32 points: the batch and the result sit at block `t`
    of the row axis; the table and the bias are one block each. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of stage two of the arrays the region found. -/
theorem flushed1_eq (c : Dev nD) (t : Fin cfg1.N) :
    (dat1 V c).flushed 3 t = ((cfg1.win 3).blk t).view.read (Elt Ideal) (stage2 (V c main_arg0) (V c main_v2) (V c main_v3)) := by
  show (cfg1.win 3).cut (grid1.coords t) ((dat1 V c).after 3 t) = _
  rw [after1_3]
  unfold out1_3
  rw [View.canon_unit_zero zero2]
  simp only [View.ld_unit_zero (S := S128x10000) zero2, View.ld_unit_zero (S := S10000x1000) zero2, View.ld_unit_zero (S := S1x1000) zero2]
  obtain ⟨e0, e1, e2, e3, e4, e5, e6, e7⟩ := index1 t
  funext j
  obtain ⟨p, cc, rfl⟩ : ∃ (p : Fin 128) (cc : Fin 1000), j = ix2 p cc := ⟨j 0, j 1, eq_ix2 j⟩
  have ht : t.val < 32 := by have h := t.isLt; have hN : cfg1.N = 32 := N_1; omega
  show k1_pay1 (iblk1 V c 0 t) (iblk1 V c 1 t) (iblk1 V c 2 t) (ix2 p cc)
    = stage2 (V c main_arg0) (V c main_v2) (V c main_v3) (((cfg1.win 3).blk t).view.emb (ix2 p cc))
  refine (pay1_apply (iblk1 V c 0 t) (iblk1 V c 1 t) (iblk1 V c 2 t) p cc).trans ?_
  have hemb : ((cfg1.win 3).blk t).view.emb (ix2 p cc) = ix2 (⟨t.val * 128 + p.val, by omega⟩ : Fin 4096) cc := by
    funext a; apply Fin.ext
    match a with
    | ⟨0, _⟩ => show win1_3.index t (0 : Fin 2) * 128 + 1 * p.val = t.val * 128 + p.val; rw [e6]; omega
    | ⟨1, _⟩ => show win1_3.index t (1 : Fin 2) * 1000 + 1 * cc.val = cc.val; rw [e7]; omega
  rw [hemb, stage2_ix2]
  refine congrArg (fun z => softmaxAt z cc) ?_
  funext c'
  unfold rowLogits
  have hx : ∀ k : Fin 10000, iblk1 V c 0 t (ix2 p k) = V c main_arg0 (ix2 (⟨t.val * 128 + p.val, by omega⟩ : Fin 4096) k) := fun k => by
    show V c main_arg0 (((cfg1.win 0).blk t).view.emb (ix2 p k)) = _
    have hin : ((cfg1.win 0).blk t).view.emb (ix2 p k) = ix2 (⟨t.val * 128 + p.val, by omega⟩ : Fin 4096) k := by
      funext a; apply Fin.ext
      match a with
      | ⟨0, _⟩ => show win1_0.index t (0 : Fin 2) * 128 + 1 * p.val = t.val * 128 + p.val; rw [e0]; omega
      | ⟨1, _⟩ => show win1_0.index t (1 : Fin 2) * 10000 + 1 * k.val = k.val; rw [e1]; omega
    rw [hin]
  have hT : ∀ k : Fin 10000, iblk1 V c 1 t (ix2 k c') = V c main_v2 (ix2 k c') := fun k => by
    show V c main_v2 (((cfg1.win 1).blk t).view.emb (ix2 k c')) = _
    have hin : ((cfg1.win 1).blk t).view.emb (ix2 k c') = ix2 k c' := by
      funext a; apply Fin.ext
      match a with
      | ⟨0, _⟩ => show win1_1.index t (0 : Fin 2) * 10000 + 1 * k.val = k.val; rw [e2]; omega
      | ⟨1, _⟩ => show win1_1.index t (1 : Fin 2) * 1000 + 1 * c'.val = c'.val; rw [e3]; omega
    rw [hin]
  have hB : iblk1 V c 2 t (ix2 (0 : Fin 1) c') = V c main_v3 (ix2 (0 : Fin 1) c') := by
    show V c main_v3 (((cfg1.win 2).blk t).view.emb (ix2 (0 : Fin 1) c')) = _
    have hin : ((cfg1.win 2).blk t).view.emb (ix2 (0 : Fin 1) c') = ix2 (0 : Fin 1) c' := by
      funext a; apply Fin.ext
      match a with
      | ⟨0, _⟩ => show win1_2.index t (0 : Fin 2) * 1 + 1 * 0 = 0; rw [e4]
      | ⟨1, _⟩ => show win1_2.index t (1 : Fin 2) * 1000 + 1 * c'.val = c'.val; rw [e5]; omega
    rw [hin]
  rw [hB]
  refine congrArg (fun s => s + V c main_v3 (ix2 (0 : Fin 1) c')) ?_
  exact Finset.sum_congr rfl fun k _ => by rw [hx k, hT k]

/-- An index of the result is in point `t`'s block iff each coordinate is in the block's range on its axis. -/
theorem mem_blk1 (t : Fin cfg1.N) (i : S4096x1000.Idx) :
    i ∈ ((cfg1.win 3).blk t).view.set ↔ ∀ a : Fin 2, win1_3.index t a * S128x1000.size a ≤ (i a).val ∧ (i a).val < win1_3.index t a * S128x1000.size a + S128x1000.size a := by
  show i ∈ ((View.whole main_v4).slice (win1_3.rect t)).set ↔ _
  rw [View.set_slice_whole, Rect.mem_set_unit]
  exact Iff.rfl

/-- Every index lies in the block of the point that holds its batch row: point `b / 128`. -/
theorem cover1 (i : S4096x1000.Idx) : ∃ t : Fin cfg1.N, (cfg1.win 3).flush t = true ∧ i ∈ ((cfg1.win 3).blk t).view.set := by
  have hi0 : (i 0).val < 4096 := (i 0).isLt
  have hi1 : (i 1).val < 1000 := (i 1).isLt
  have hN : cfg1.N = 32 := N_1
  let t : Fin cfg1.N := ⟨(i 0).val / 128, by omega⟩
  obtain ⟨e0, e1, e2, e3, e4, e5, e6, e7⟩ := index1 t
  have ht : t.val = (i 0).val / 128 := rfl
  refine ⟨t, flush1_3 t, ?_⟩
  rw [mem_blk1]
  intro a
  match a with
  | ⟨0, _⟩ => show win1_3.index t (0 : Fin 2) * 128 ≤ (i 0).val ∧ (i 0).val < win1_3.index t (0 : Fin 2) * 128 + 128; rw [e6, ht]; omega
  | ⟨1, _⟩ => show win1_3.index t (1 : Fin 2) * 1000 ≤ (i 1).val ∧ (i 1).val < win1_3.index t (1 : Fin 2) * 1000 + 1000; rw [e7]; omega

/-- THE ARRAY the second region leaves: stage two of the arrays it found. -/
theorem final1 (c : Dev nD) : (dat1 V c).arrAt 3 cfg1.N = stage2 (V c main_arg0) (V c main_v2) (V c main_v3) :=
  (dat1 V c).arrAt_eq_of_cover 3 (stage2 (V c main_arg0) (V c main_v2) (V c main_v3)) (fun t _ => flushed1_eq V c t) cover1

end Cert.KernelIdeal.KValue

end
-- ==== Proof.KHost.lean ====
/-
  What the two regions find in the arrays they read. Before the first region the weights are reshaped to 100 groups of
  100 rows; between the regions the first region's result is reshaped back to 10000 rows and the bias becomes a
  1 × 1000 row; the batch is never written. Each is read back through the host operations to the launch memory.
-/
import proofs.«118734_j25331717111832_2_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- The first region finds the weights reshaped to [100, 100, 1000]. -/
theorem entry_weights (c : Dev nD) :
    (V1 m ρ c main_v0 : S100x100x1000.Idx → EReal)
      = shapeCast S100x100x1000 (m ((c : Thread nD τ).loc main_arg1)) shapeCasts_S10000x1000_S100x100x1000 := by
  show StableHlo.after hostOps0 (W0 m ρ c) (Proc.devRef .tc main_v0) = _
  after_results
  rfl

/-- The second region finds the batch as launched. -/
theorem entry_batch (c : Dev nD) : V3 m ρ c main_arg0 = m ((c : Thread nD τ).loc main_arg0) := by
  have h3 : W3 m ρ c (Proc.devRef .tc main_arg0) = W2 m ρ c (Proc.devRef .tc main_arg0) := by
    show StableHlo.after hostOps1 (W2 m ρ c) (Proc.devRef .tc main_arg0) = _
    after_results
  have h1 : W1 m ρ c (Proc.devRef .tc main_arg0) = W0 m ρ c (Proc.devRef .tc main_arg0) := by
    show StableHlo.after hostOps0 (W0 m ρ c) (Proc.devRef .tc main_arg0) = _
    after_results
  exact h3.trans ((W2_of_ne m ρ c main_arg0 (by decide)).trans h1)

/-- The second region finds, as its table, the first region's result reshaped to [10000, 1000]. -/
theorem entry_table (c : Dev nD) :
    (V3 m ρ c main_v2 : S10000x1000.Idx → EReal)
      = shapeCast S10000x1000 ((dat0 (V1 m ρ) c).arrAt 1 cfg0.N) shapeCasts_S100x100x1000_S10000x1000 := by
  have h3 : W3 m ρ c (Proc.devRef .tc main_v2)
      = shapeCast S10000x1000 (W2 m ρ c (Proc.devRef .tc main_v1)) shapeCasts_S100x100x1000_S10000x1000 := by
    show StableHlo.after hostOps1 (W2 m ρ c) (Proc.devRef .tc main_v2) = _
    after_results
    rfl
  refine h3.trans ?_
  exact congrArg (fun a => shapeCast S10000x1000 a shapeCasts_S100x100x1000_S10000x1000) (W2_arr m ρ c 1)

/-- The second region finds the bias reshaped to [1, 1000]. -/
theorem entry_bias (c : Dev nD) :
    (V3 m ρ c main_v3 : S1x1000.Idx → EReal)
      = shapeCast S1x1000 (m ((c : Thread nD τ).loc main_arg2)) shapeCasts_S1000_S1x1000 := by
  have h3 : W3 m ρ c (Proc.devRef .tc main_v3)
      = shapeCast S1x1000 (W2 m ρ c (Proc.devRef .tc main_arg2)) shapeCasts_S1000_S1x1000 := by
    show StableHlo.after hostOps1 (W2 m ρ c) (Proc.devRef .tc main_v3) = _
    after_results
    rfl
  have h1 : W1 m ρ c (Proc.devRef .tc main_arg2) = W0 m ρ c (Proc.devRef .tc main_arg2) := by
    show StableHlo.after hostOps0 (W0 m ρ c) (Proc.devRef .tc main_arg2) = _
    after_results
  refine h3.trans ?_
  exact congrArg (fun a => shapeCast S1x1000 a shapeCasts_S1000_S1x1000) ((W2_of_ne m ρ c main_arg2 (by decide)).trans h1)

end Cert.KernelIdeal.KValue

end
-- ==== Proof.KBridge.lean ====
/-
  The kernel's two stages, run one after the other on the regrouped weights, compute the kernel's result.

  Stage one reads the weights as 100 groups of 100 rows; column `c` of group `g` of that array is the group's column
  of the weights, so stage one's entry at group `k / 100`, row `k % 100`, column `c` is the centred table's entry at
  row `k`, column `c`. Stage two over that table, with the bias as a one-row matrix, forms the same logits as the
  result over the centred table, term by term, and takes the same row softmax.
-/
import proofs.«118734_j25331717111832_2_alg».proof.Proof.KSpec

noncomputable section

namespace Cert.GroupSoftmax

open Idealize.ShloMosaic Idealize.ShloMosaic.ValueIdx

/-- Over the regrouped weights, the block entry at group `k / 100`, row `k % 100` is the centred table's entry at row `k`:
    each column of the group, read from the three-axis array, is the group's column of the weights. -/
theorem centeredBlock_eq_centered (W : Mat 10000 1000)
    (w3 : (⟨3, ![100, 100, 1000]⟩ : Shape).Idx → EReal)
    (hw3 : ∀ (g r : Fin 100) (c : Fin 1000), w3 (ix3 g r c) = groupCol W g c r)
    (k : Fin 10000) (c : Fin 1000) :
    centeredBlock w3 (⟨k.val / 100, by have := k.isLt; omega⟩ : Fin 100) (⟨k.val % 100, by omega⟩ : Fin 100) c
      = centered W k c := by
  unfold centeredBlock centered table
  simp only [hw3]

/-- Over a table that is the centred table entry by entry, and a one-row bias matrix that is the bias, stage two's
    logits of row `b` are the logits over the centred table: the same products, the same sum, the same bias term. -/
theorem rowLogits_eq_logits (x : Mat 4096 10000) (W : Mat 10000 1000) (bias : Row 1000) (T : Mat 10000 1000)
    (hT : ∀ (k : Fin 10000) (c : Fin 1000), T (ix2 k c) = centered W k c)
    (bv : Mat 1 1000) (hbv : ∀ c : Fin 1000, bv (ix2 (0 : Fin 1) c) = bias (ix1 c)) (b : Fin 4096) :
    rowLogits x T bv b = logits (centered W) x bias b := by
  funext c
  unfold rowLogits logits
  rw [hbv c]
  exact congrArg (· + bias (ix1 c)) (Finset.sum_congr rfl fun k _ => by rw [hT k c])

/-- Stage two over stage one's output, flattened back to 10000 rows, is the kernel's result. -/
theorem stage2_eq_kerOut (x : Mat 4096 10000) (W : Mat 10000 1000) (bias : Row 1000)
    (w3 : (⟨3, ![100, 100, 1000]⟩ : Shape).Idx → EReal)
    (hw3 : ∀ (g r : Fin 100) (c : Fin 1000), w3 (ix3 g r c) = groupCol W g c r)
    (T : Mat 10000 1000)
    (hT : ∀ (k : Fin 10000) (c : Fin 1000), T (ix2 k c) = stage1 w3 (ix3 (⟨k.val / 100, by have := k.isLt; omega⟩ : Fin 100) (⟨k.val % 100, by omega⟩ : Fin 100) c))
    (bv : Mat 1 1000) (hbv : ∀ c : Fin 1000, bv (ix2 (0 : Fin 1) c) = bias (ix1 c)) :
    stage2 x T bv = kerOut x W bias := by
  have hT' : ∀ (k : Fin 10000) (c : Fin 1000), T (ix2 k c) = centered W k c := fun k c => by
    rw [hT k c, stage1_ix3]
    exact centeredBlock_eq_centered W w3 hw3 k c
  funext i
  obtain ⟨b, c, rfl⟩ : ∃ (b : Fin 4096) (c : Fin 1000), i = ix2 b c :=
    ⟨⟨(i 0).val, idx2_lt0 i⟩, ⟨(i 1).val, idx2_lt1 i⟩, eq_ix2 i⟩
  rw [stage2_ix2, rowLogits_eq_logits x W bias T hT' bv hbv b]
  rfl

end Cert.GroupSoftmax

end
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.KFinal.lean ====
/-
  The idealized kernel's result as one function of its three arguments. The second region leaves stage two of the
  batch, of the reshaped result of the first region and of the bias row; the first region leaves stage one of the
  reshaped weights. Reading the reshapes at an index (row `k` of the 10000 is row `k % 100` of group `k / 100`) turns
  this into the batch times the centred table plus the bias, each row through a softmax.
-/
import proofs.«118734_j25331717111832_2_alg».proof.Proof.KRun
import proofs.«118734_j25331717111832_2_alg».proof.Proof.KValue0
import proofs.«118734_j25331717111832_2_alg».proof.Proof.KValue1
import proofs.«118734_j25331717111832_2_alg».proof.Proof.KHost
import proofs.«118734_j25331717111832_2_alg».proof.Proof.KBridge
import proofs.«118734_j25331717111832_2_alg».proof.Proof.LibLayout3
import Idealize.ShloMosaic.Lib.ValueLayout

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.GroupSoftmax

variable (m : (ℓ : Loc nD τ sig) → Buf (Elt Ideal) ℓ) (ρ : Dev nD → PrngReg)

/-- The result array after the run is the kernel's function of the three argument arrays. -/
theorem result_eq (c : Dev nD) :
    (dat1 (V3 m ρ) c).arrAt 3 cfg1.N
      = kerOut (m ((c : Thread nD τ).loc main_arg0)) (m ((c : Thread nD τ).loc main_arg1)) (m ((c : Thread nD τ).loc main_arg2)) := by
  rw [final1 (V3 m ρ) c, entry_batch m ρ c, entry_table m ρ c, entry_bias m ρ c, final0 (V1 m ρ) c, entry_weights m ρ c]
  refine stage2_eq_kerOut _ _ _
    (shapeCast S100x100x1000 (m ((c : Thread nD τ).loc main_arg1)) shapeCasts_S10000x1000_S100x100x1000)
    (fun g r cc => ?_) _ (fun k cc => ?_) _ (fun cc => ?_)
  · exact shapeCast_nc_abc_apply _ _ g r cc _ rfl
  · exact shapeCast_abc_nc_apply _ _ k cc _ _ (by show k.val = k.val / 100 * 100 + k.val % 100; omega)
  · exact shapeCast_a_1a_apply _ _ 0 cc

/-- Every weakly fair execution of the idealized kernel terminates without a fault, with the result array at the
    kernel's function of the arguments and the arguments unchanged. -/
theorem kernel_run : θ_run defs (onTc (τ := τ) (main (F := Ideal))) ⟨m, fun _ => 0, ρ⟩ (fun r => ∀ c : Dev nD,
      r.2.mem ((c.tc : Thread nD τ).loc main_v4)
        = kerOut (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.KValue

end
-- ==== Proof.RefValue.lean ====
/-
  The reference's result, read index by index, is the specification `refOut`.

  The reference regroups the 10000 weight rows as 100 groups of 100 rows. Inside a group and a column it takes the
  maximum of the 100 entries (a fold from minus infinity, then a maximum against minus infinity, which changes
  nothing), the exponentials of the entries less that maximum, their sum (from the zero word, which adds nothing),
  the quotient, adds ε and takes the logarithm: that is `logTheta` of the group's column. Regrouped back, row `k`
  is place `k % 100` of group `k / 100`: the `table`. The batch is multiplied into the table and the bias added:
  the `logits`. Each row of logits then goes through the same maximum, exponential, sum and quotient over its 1000
  columns: `softmaxAt`. Every step is read at an index built from literal coordinates; the two maxima over an axis
  are read as folds over that axis's coordinates.
-/
import proofs.«118734_j25331717111832_2_alg».proof.Proof.Gen.ReferenceIdeal.Read
import proofs.«118734_j25331717111832_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.GroupSoftmax

/-- Dropping the middle axis of a rank-3 shape: the index over (g, c) with k put back on the middle axis is (g, k, c). -/
theorem lift_mid {n0 n1 n2 : Nat} (h : (⟨3, ![n0, n1, n2]⟩ : Shape).Reduces [1] (⟨2, ![n0, n2]⟩ : Shape)) (g : Fin n0) (c : Fin n2)
    (k : Fin ((⟨3, ![n0, n1, n2]⟩ : Shape).size 1)) : h.lift (ix2 g c) k = ix3 g (⟨k.val, k.isLt⟩ : Fin n1) c := by
  funext a; apply Fin.ext
  match a with
  | ⟨0, _⟩ => rfl
  | ⟨1, _⟩ => rfl
  | ⟨2, _⟩ => rfl

/-- Dropping the last axis of a rank-2 shape: the index over b with k put back is (b, k). -/
theorem lift_last {n0 n1 : Nat} (h : (⟨2, ![n0, n1]⟩ : Shape).Reduces [1] (⟨1, ![n0]⟩ : Shape)) (b : Fin n0)
    (k : Fin ((⟨2, ![n0, n1]⟩ : Shape).size 1)) : h.lift (ix1 b) k = ix2 b (⟨k.val, k.isLt⟩ : Fin n1) := by
  funext a; apply Fin.ext
  match a with
  | ⟨0, _⟩ => rfl
  | ⟨1, _⟩ => rfl

/-- Entry (g, r, c) of the weights regrouped as 100 groups of 100 rows is row 100 g + r of the weights. -/
theorem v0_at (x1 : (⟨S10000x1000, .f32⟩ : BufTy).Contents (Elt Ideal)) (g r : Fin 100) (c : Fin 1000) :
    val_main_v0 (F := Ideal) x1 (ix3 g r c) = groupCol x1 g c r := by
  rw [val_main_v0_apply]
  unfold groupCol
  refine congrArg x1 (funext fun a => Fin.ext ?_)
  have hg := g.isLt; have hr := r.isLt; have hc := c.isLt
  match a with
  | ⟨0, _⟩ => show ((g.val * 100 + r.val) * 1000 + c.val) / 1000 = g.val * 100 + r.val; omega
  | ⟨1, _⟩ => show ((g.val * 100 + r.val) * 1000 + c.val) % 1000 = c.val; omega

/-- The first max-reduce: over the 100 rows of group g at column c, folded from minus infinity. -/
theorem v1_at (x1 : (⟨S10000x1000, .f32⟩ : BufTy).Contents (Elt Ideal)) (g : Fin 100) (c : Fin 1000) :
    val_main_v1 (F := Ideal) x1 (ix2 g c) = maxOver (groupCol x1 g c) := by
  unfold val_main_v1
  generalize hy : val_main_v0 (F := Ideal) x1 = y
  have h : S100x100x1000.Reduces [1] S100x1000 := by decide
  refine (Host.reduce_eq_fold_single (FloatOps.maximumf (F := Ideal) (φ := .f32)) y (val_main_cst (F := Ideal)) reducesTo_S100x100x1000_S100x1000_d1 h h_S_ (ix2 g c)).trans ?_
  have hf : (y ∘ h.lift (ix2 g c)) = groupCol x1 g c := funext fun k => by
    show y (h.lift (ix2 g c) k) = _
    rw [lift_mid (n1 := 100) h g c k, ← hy]; exact v0_at x1 g k c
  rw [hf]
  rfl

/-- The reference then takes the maximum with a broadcast minus infinity, which changes nothing. -/
theorem v3_at (x1 : (⟨S10000x1000, .f32⟩ : BufTy).Contents (Elt Ideal)) (g : Fin 100) (c : Fin 1000) :
    val_main_v3 (F := Ideal) x1 (ix2 g c) = maxOver (groupCol x1 g c) := by
  rw [val_main_v3_apply, val_main_v2_apply, val_main_cst_0_apply, v1_at, Ideal.maximumf_def, Ideal.ofBits_def]
  exact max_negInf _

/-- The group maximum broadcast back over the 100 rows of the group. -/
theorem v5_at (x1 : (⟨S10000x1000, .f32⟩ : BufTy).Contents (Elt Ideal)) (g r : Fin 100) (c : Fin 1000) :
    val_main_v5 (F := Ideal) x1 (ix3 g r c) = maxOver (groupCol x1 g c) := by
  rw [val_main_v5_apply, val_main_v4_apply]
  have e : idx_main_v4 (idx_main_v5 (ix3 g r c)) = ix2 g c :=
    funext fun a => Fin.ext (by match a with | ⟨0, _⟩ => rfl | ⟨1, _⟩ => rfl)
  rw [e, v3_at]

/-- The exponential of an entry less its group maximum. -/
theorem v7_at (x1 : (⟨S10000x1000, .f32⟩ : BufTy).Contents (Elt Ideal)) (g r : Fin 100) (c : Fin 1000) :
    val_main_v7 (F := Ideal) x1 (ix3 g r c) = Ideal.exp (groupCol x1 g c r - maxOver (groupCol x1 g c)) := by
  rw [val_main_v7_apply, val_main_v6_apply, v0_at, v5_at, Ideal.hostUnary_exp_def, Ideal.subf_def]

/-- The sum of those exponentials over the 100 rows of the group. -/
theorem v8_at (x1 : (⟨S10000x1000, .f32⟩ : BufTy).Contents (Elt Ideal)) (g : Fin 100) (c : Fin 1000) :
    val_main_v8 (F := Ideal) x1 (ix2 g c) = ∑ r : Fin 100, Ideal.exp (groupCol x1 g c r - maxOver (groupCol x1 g c)) := by
  rw [val_main_v8_apply, val_main_cst_1_apply, Ideal.ofBits_def, Ideal.ofBits_zero_f32, zero_add]
  refine Finset.sum_congr rfl fun r _ => ?_
  have e : idx_main_v8 (ix2 g c) r = ix3 g r c :=
    funext fun a => Fin.ext (by match a with | ⟨0, _⟩ => rfl | ⟨1, _⟩ => rfl | ⟨2, _⟩ => rfl)
  rw [e, v7_at]

/-- The sum broadcast back over the 100 rows of the group. -/
theorem v10_at (x1 : (⟨S10000x1000, .f32⟩ : BufTy).Contents (Elt Ideal)) (g r : Fin 100) (c : Fin 1000) :
    val_main_v10 (F := Ideal) x1 (ix3 g r c) = ∑ r' : Fin 100, Ideal.exp (groupCol x1 g c r' - maxOver (groupCol x1 g c)) := by
  rw [val_main_v10_apply, val_main_v9_apply]
  have e : idx_main_v9 (idx_main_v10 (ix3 g r c)) = ix2 g c :=
    funext fun a => Fin.ext (by match a with | ⟨0, _⟩ => rfl | ⟨1, _⟩ => rfl)
  rw [e, v8_at]

/-- The logarithm of (the softmax over the group's rows, plus ε), at (g, r, c). -/
theorem v14_at (x1 : (⟨S10000x1000, .f32⟩ : BufTy).Contents (Elt Ideal)) (g r : Fin 100) (c : Fin 1000) :
    val_main_v14 (F := Ideal) x1 (ix3 g r c) = logTheta (groupCol x1 g c) r := by
  rw [val_main_v14_apply, val_main_v13_apply, val_main_v11_apply, val_main_v12_apply, val_main_cst_2_apply, v7_at, v10_at,
    Ideal.hostUnary_log_def, Ideal.addf_def, Ideal.hostDivf_def, Ideal.ofBits_def]
  rfl

/-- Regrouped back into 10000 rows: row k is place k % 100 of group k / 100. -/
theorem v15_at (x1 : (⟨S10000x1000, .f32⟩ : BufTy).Contents (Elt Ideal)) (k : Fin 10000) (c : Fin 1000) :
    val_main_v15 (F := Ideal) x1 (ix2 k c) = table x1 k c := by
  rw [val_main_v15_apply]
  have hk := k.isLt; have hc := c.isLt
  have e : idx_main_v15 (ix2 k c) = ix3 (⟨k.val / 100, by omega⟩ : Fin 100) (⟨k.val % 100, by omega⟩ : Fin 100) c :=
    funext fun a => Fin.ext (by
      match a with
      | ⟨0, _⟩ => show (k.val * 1000 + c.val) / 100000 = k.val / 100; omega
      | ⟨1, _⟩ => show (k.val * 1000 + c.val) / 1000 % 100 = k.val % 100; omega
      | ⟨2, _⟩ => show (k.val * 1000 + c.val) % 1000 = c.val; omega)
  rw [e, v14_at]
  rfl

/-- The batch row times the table, plus the bias: one entry of the logits. -/
theorem v19_at (x0 : (⟨S4096x10000, .f32⟩ : BufTy).Contents (Elt Ideal)) (x1 : (⟨S10000x1000, .f32⟩ : BufTy).Contents (Elt Ideal))
    (x2 : (⟨S1000, .f32⟩ : BufTy).Contents (Elt Ideal)) (b : Fin 4096) (c : Fin 1000) :
    val_main_v19 (F := Ideal) x0 x1 x2 (ix2 b c) = logits (table x1) x0 x2 b c := by
  rw [val_main_v19_apply, val_main_v16_apply, val_main_v18_apply, val_main_v17_apply, Ideal.addf_def]
  unfold logits
  have e2 : idx_main_v17 (idx_main_v18 (ix2 b c)) = ix1 c :=
    funext fun a => Fin.ext (by match a with | ⟨0, _⟩ => rfl)
  rw [e2]
  refine congrArg (· + x2 (ix1 c)) (Finset.sum_congr rfl fun k _ => ?_)
  have el : lidx_main_v16 (ix2 b c) k = ix2 b k :=
    funext fun a => Fin.ext (by match a with | ⟨0, _⟩ => rfl | ⟨1, _⟩ => rfl)
  have er : ridx_main_v16 (ix2 b c) k = ix2 k c :=
    funext fun a => Fin.ext (by match a with | ⟨0, _⟩ => rfl | ⟨1, _⟩ => rfl)
  rw [el, er, v15_at]

/-- The second max-reduce: over the 1000 columns of row b of the logits, folded from minus infinity. -/
theorem v20_at (x0 : (⟨S4096x10000, .f32⟩ : BufTy).Contents (Elt Ideal)) (x1 : (⟨S10000x1000, .f32⟩ : BufTy).Contents (Elt Ideal))
    (x2 : (⟨S1000, .f32⟩ : BufTy).Contents (Elt Ideal)) (b : Fin 4096) :
    val_main_v20 (F := Ideal) x0 x1 x2 (ix1 b) = maxOver (logits (table x1) x0 x2 b) := by
  unfold val_main_v20
  generalize hy : val_main_v19 (F := Ideal) x0 x1 x2 = y
  have h : S4096x1000.Reduces [1] S4096 := by decide
  refine (Host.reduce_eq_fold_single (FloatOps.maximumf (F := Ideal) (φ := .f32)) y (val_main_cst_3 (F := Ideal)) reducesTo_S4096x1000_S4096_d1 h h_S_ (ix1 b)).trans ?_
  have hf : (y ∘ h.lift (ix1 b)) = logits (table x1) x0 x2 b := funext fun k => by
    show y (h.lift (ix1 b) k) = _
    rw [lift_last (n1 := 1000) h b k, ← hy]; exact v19_at x0 x1 x2 b k
  rw [hf]
  rfl

/-- The row maximum broadcast back over the 1000 columns. -/
theorem v24_at (x0 : (⟨S4096x10000, .f32⟩ : BufTy).Contents (Elt Ideal)) (x1 : (⟨S10000x1000, .f32⟩ : BufTy).Contents (Elt Ideal))
    (x2 : (⟨S1000, .f32⟩ : BufTy).Contents (Elt Ideal)) (b : Fin 4096) (c : Fin 1000) :
    val_main_v24 (F := Ideal) x0 x1 x2 (ix2 b c) = maxOver (logits (table x1) x0 x2 b) := by
  rw [val_main_v24_apply, val_main_v23_apply]
  have e : idx_main_v23 (idx_main_v24 (ix2 b c)) = ix1 b :=
    funext fun a => Fin.ext (by match a with | ⟨0, _⟩ => rfl)
  rw [e, val_main_v22_apply, val_main_v21_apply, val_main_cst_4_apply, v20_at, Ideal.maximumf_def, Ideal.ofBits_def]
  exact max_negInf _

/-- The exponential of a logit less its row maximum. -/
theorem v26_at (x0 : (⟨S4096x10000, .f32⟩ : BufTy).Contents (Elt Ideal)) (x1 : (⟨S10000x1000, .f32⟩ : BufTy).Contents (Elt Ideal))
    (x2 : (⟨S1000, .f32⟩ : BufTy).Contents (Elt Ideal)) (b : Fin 4096) (c : Fin 1000) :
    val_main_v26 (F := Ideal) x0 x1 x2 (ix2 b c)
      = Ideal.exp (logits (table x1) x0 x2 b c - maxOver (logits (table x1) x0 x2 b)) := by
  rw [val_main_v26_apply, val_main_v25_apply, v19_at, v24_at, Ideal.hostUnary_exp_def, Ideal.subf_def]

/-- The sum of those exponentials over the 1000 columns, broadcast back over them. -/
theorem v29_at (x0 : (⟨S4096x10000, .f32⟩ : BufTy).Contents (Elt Ideal)) (x1 : (⟨S10000x1000, .f32⟩ : BufTy).Contents (Elt Ideal))
    (x2 : (⟨S1000, .f32⟩ : BufTy).Contents (Elt Ideal)) (b : Fin 4096) (c : Fin 1000) :
    val_main_v29 (F := Ideal) x0 x1 x2 (ix2 b c)
      = ∑ c' : Fin 1000, Ideal.exp (logits (table x1) x0 x2 b c' - maxOver (logits (table x1) x0 x2 b)) := by
  rw [val_main_v29_apply, val_main_v28_apply]
  have e : idx_main_v28 (idx_main_v29 (ix2 b c)) = ix1 b :=
    funext fun a => Fin.ext (by match a with | ⟨0, _⟩ => rfl)
  rw [e, val_main_v27_apply, val_main_cst_5_apply, Ideal.ofBits_def, Ideal.ofBits_zero_f32, zero_add]
  refine Finset.sum_congr rfl fun c' _ => ?_
  have e' : idx_main_v27 (ix1 b) c' = ix2 b c' :=
    funext fun a => Fin.ext (by match a with | ⟨0, _⟩ => rfl | ⟨1, _⟩ => rfl)
  rw [e', v26_at]

/-- The reference's result is the specification: the softmax of each row of logits over the table. -/
theorem val_out_eq (x0 : (⟨Cert.ReferenceIdeal.S4096x10000, .f32⟩ : BufTy).Contents (Elt Ideal)) (x1 : (⟨Cert.ReferenceIdeal.S10000x1000, .f32⟩ : BufTy).Contents (Elt Ideal)) (x2 : (⟨Cert.ReferenceIdeal.S1000, .f32⟩ : BufTy).Contents (Elt Ideal)) :
    Cert.ReferenceIdeal.Read.val_main_v30 (F := Ideal) x0 x1 x2 = Cert.GroupSoftmax.refOut x0 x1 x2 := by
  funext i
  obtain ⟨b, c, rfl⟩ : ∃ (b : Fin 4096) (c : Fin 1000), i = ix2 b c := ⟨i 0, i 1, eq_ix2 i⟩
  rw [val_main_v30_apply, v26_at, v29_at, Ideal.hostDivf_def]
  exact (outOver_ix2 (table x1) x0 x2 b c).symm

end Cert.ReferenceIdeal.RefValue

end
-- ==== Proof.Law.lean ====
/-
  The kernel's result and the reference's result are the same function of real inputs.

  Both are a row softmax of logits built from a table. Every table entry is a real number: a softmax over a
  nonempty family of reals is a positive real, adding a nonnegative real keeps it positive, and its logarithm is
  real. The kernel's table is the reference's table less, in every row, a real number that does not depend on the
  column; so each of the kernel's logit rows is the reference's row less one real number, and a softmax over a
  nonempty family of reals does not change when one real number is subtracted from every member.
-/
import proofs.«118734_j25331717111832_2_alg».proof.Proof.Spec

noncomputable section

namespace Cert.GroupSoftmax

open Idealize.ShloMosaic Idealize.ShloMosaic.ValueIdx

/-! ## Sums and maxima of real families inside the extended reals -/

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real maximum, taken in the extended reals, is the maximum there. -/
theorem coe_max (a b : ℝ) : ((max a b : ℝ) : EReal) = max (a : EReal) (b : EReal) :=
  EReal.coe_strictMono.monotone.map_max

/-- The maximum of a real and the fold of `max` from the bottom over finitely many reals is a real. -/
theorem fold_max_real {ι : Type} [DecidableEq ι] (s : Finset ι) (f : ι → ℝ) (r : ℝ) :
    ∃ M : ℝ, max (r : EReal) (s.fold max ⊥ fun i => ((f i : ℝ) : EReal)) = (M : EReal) := by
  induction s using Finset.induction_on generalizing r with
  | empty => exact ⟨r, by simp⟩
  | insert a s ha ih =>
    obtain ⟨M, hM⟩ := ih (max r (f a))
    refine ⟨M, ?_⟩
    rw [Finset.fold_insert ha, ← max_assoc, ← coe_max, hM]

/-- The maximum over a nonempty finite family of reals is a real. -/
theorem maxOver_real {n : ℕ} (hn : 0 < n) (f : Fin n → ℝ) :
    ∃ M : ℝ, maxOver (fun i => ((f i : ℝ) : EReal)) = (M : EReal) := by
  unfold maxOver
  rw [negInf_eq_bot, ← Finset.insert_erase (Finset.mem_univ (⟨0, hn⟩ : Fin n)),
    Finset.fold_insert (Finset.notMem_erase _ _)]
  exact fold_max_real _ f (f ⟨0, hn⟩)

/-- Subtracting one real from every member of a family subtracts it from the maximum:
    `y ↦ y - d` is monotone and keeps the bottom. -/
theorem maxOver_shift {n : ℕ} (z : Fin n → EReal) (d : ℝ) :
    maxOver (fun c => z c - (d : EReal)) = maxOver z - (d : EReal) := by
  unfold maxOver
  rw [negInf_eq_bot]
  have hm : ∀ x y : EReal, max x y - (d : EReal) = max (x - (d : EReal)) (y - (d : EReal)) := fun x y =>
    Monotone.map_max (f := fun t : EReal => t - (d : EReal)) (fun a b h => EReal.sub_le_sub h le_rfl)
  have h := Finset.fold_hom (op := max) (op' := max) (m := fun t : EReal => t - (d : EReal)) (b := ⊥) (f := z)
    (s := Finset.univ) hm
  rw [EReal.bot_sub] at h
  exact h

/-! ## The softmax of a real family -/

/-- A softmax over a nonempty family of reals does not change when one real is subtracted from every member:
    the maximum moves by the same real, so every difference `z c - max z` stays what it was. -/
theorem softmaxAt_shift {n : ℕ} (hn : 0 < n) (z : Fin n → ℝ) (d : ℝ) :
    softmaxAt (fun c => ((z c - d : ℝ) : EReal)) = softmaxAt (fun c => ((z c : ℝ) : EReal)) := by
  obtain ⟨M, hM⟩ := maxOver_real hn z
  have hfun : (fun c => ((z c - d : ℝ) : EReal)) = fun c => ((z c : ℝ) : EReal) - (d : EReal) :=
    funext fun c => EReal.coe_sub _ _
  have hM' : maxOver (fun c => ((z c - d : ℝ) : EReal)) = ((M - d : ℝ) : EReal) := by
    rw [hfun, maxOver_shift, hM, ← EReal.coe_sub]
  have key : ∀ c, ((z c - d : ℝ) : EReal) - maxOver (fun c => ((z c - d : ℝ) : EReal))
      = ((z c : ℝ) : EReal) - maxOver (fun c => ((z c : ℝ) : EReal)) := by
    intro c
    rw [hM', hM, ← EReal.coe_sub, ← EReal.coe_sub, sub_sub_sub_cancel_right]
  funext c
  unfold softmaxAt
  simp only [key]

/-- A softmax over a nonempty family of reals is, at every member, a positive real. -/
theorem softmaxAt_real_pos {n : ℕ} (hn : 0 < n) (f : Fin n → ℝ) (c : Fin n) :
    ∃ p : ℝ, 0 < p ∧ softmaxAt (fun i => ((f i : ℝ) : EReal)) c = (p : EReal) := by
  obtain ⟨M, hM⟩ := maxOver_real hn f
  have hS : 0 < ∑ c' : Fin n, Real.exp (f c' - M) :=
    Finset.sum_pos (fun i _ => Real.exp_pos _) ⟨⟨0, hn⟩, Finset.mem_univ _⟩
  refine ⟨Real.exp (f c - M) * (1 / ∑ c' : Fin n, Real.exp (f c' - M)),
    mul_pos (Real.exp_pos _) (one_div_pos.mpr hS), ?_⟩
  unfold softmaxAt
  simp only [hM, ← EReal.coe_sub, Ideal.exp_coe, coe_sum]
  rw [Ideal.div_coe hS.ne', ← EReal.coe_mul]

/-! ## The shared float words -/

/-- The word of ε denotes a nonnegative real (`9223372 / 2^63`). -/
theorem eps_real : ∃ e : ℝ, 0 ≤ e ∧ eps = (e : EReal) := by
  refine ⟨9223372 * ((2 : ℝ) ^ 63)⁻¹, by positivity, ?_⟩
  unfold eps
  simp [Ideal.ofBits, Ideal.ieee]

/-- The word of 1000 denotes a nonzero real (`16384000 / 2^14`). -/
theorem thousand_real : ∃ t : ℝ, t ≠ 0 ∧ thousand = (t : EReal) := by
  refine ⟨16384000 * ((2 : ℝ) ^ 14)⁻¹, by positivity, ?_⟩
  unfold thousand
  simp [Ideal.ofBits, Ideal.ieee]

/-! ## The two tables are real, and differ row by row by a real -/

/-- `log (softmax + ε)` of a real column is real: the softmax is positive and ε is not negative. -/
theorem logTheta_real (f : Fin 100 → ℝ) (r : Fin 100) :
    ∃ v : ℝ, logTheta (fun i => ((f i : ℝ) : EReal)) r = (v : EReal) := by
  obtain ⟨p, hp, hs⟩ := softmaxAt_real_pos (by norm_num : 0 < 100) f r
  obtain ⟨e, he, hε⟩ := eps_real
  refine ⟨Real.log (p + e), ?_⟩
  unfold logTheta
  rw [hs, hε, ← EReal.coe_add, Ideal.log_coe, if_neg (not_le.mpr (add_pos_of_pos_of_nonneg hp he))]

/-- A group's column of real weights is a real family. -/
theorem groupCol_real (W : Mat 10000 1000) (hW : ∀ i, ∃ r : ℝ, W i = (r : EReal)) (g : Fin 100) (c : Fin 1000) :
    ∃ f : Fin 100 → ℝ, groupCol W g c = fun r' => ((f r' : ℝ) : EReal) := by
  choose Wr hWr using hW
  exact ⟨fun r' => Wr (ix2 (⟨g.val * 100 + r'.val, by have := g.isLt; have := r'.isLt; omega⟩ : Fin 10000) c),
    funext fun r' => hWr _⟩

/-- Every entry of the table over real weights is real. -/
theorem table_real (W : Mat 10000 1000) (hW : ∀ i, ∃ r : ℝ, W i = (r : EReal)) (k : Fin 10000) (c : Fin 1000) :
    ∃ v : ℝ, table W k c = (v : EReal) := by
  obtain ⟨f, hf⟩ := groupCol_real W hW (⟨k.val / 100, by have := k.isLt; omega⟩ : Fin 100) c
  unfold table
  rw [hf]
  exact logTheta_real f _

/-- The centered table is the table less, in row `k`, the real mean `μ k` of that row. -/
theorem centered_real (W : Mat 10000 1000) (t : Fin 10000 → Fin 1000 → ℝ)
    (ht : ∀ k c, table W k c = ((t k c : ℝ) : EReal)) :
    ∃ μ : Fin 10000 → ℝ, ∀ k c, centered W k c = ((t k c - μ k : ℝ) : EReal) := by
  obtain ⟨T, hT0, hT⟩ := thousand_real
  refine ⟨fun k => (∑ c' : Fin 1000, t k c') * (1 / T), fun k c => ?_⟩
  unfold centered
  simp only [ht, coe_sum]
  rw [hT, Ideal.div_coe hT0, ← EReal.coe_mul, ← EReal.coe_sub]

/-! ## The logits -/

/-- Over a real table, real batch rows and a real bias, a logit is the real `Σ_k x b k · τ k c + bias c`. -/
theorem logits_real (T : Fin 10000 → Fin 1000 → EReal) (τ : Fin 10000 → Fin 1000 → ℝ)
    (hT : ∀ k c, T k c = ((τ k c : ℝ) : EReal))
    (x : Mat 4096 10000) (xr : (⟨2, ![4096, 10000]⟩ : Shape).Idx → ℝ) (hx : ∀ i, x i = ((xr i : ℝ) : EReal))
    (bias : Row 1000) (br : (⟨1, ![1000]⟩ : Shape).Idx → ℝ) (hb : ∀ i, bias i = ((br i : ℝ) : EReal))
    (b : Fin 4096) (c : Fin 1000) :
    logits T x bias b c = ((∑ k : Fin 10000, xr (ix2 b k) * τ k c + br (ix1 c) : ℝ) : EReal) := by
  unfold logits
  simp only [hT, hx, hb, ← EReal.coe_mul, coe_sum, ← EReal.coe_add]

/-! ## The two results agree -/

/-- On real inputs the kernel's result is the reference's: row by row the kernel's logits are the reference's less
    the real `Σ_k x b k · μ k`, which does not depend on the column, and the row softmax does not see it. -/
theorem kerOut_eq_refOut (x : Mat 4096 10000) (W : Mat 10000 1000) (bias : Row 1000)
    (hx : ∀ i, ∃ r : ℝ, x i = (r : EReal)) (hW : ∀ i, ∃ r : ℝ, W i = (r : EReal)) (hb : ∀ i, ∃ r : ℝ, bias i = (r : EReal)) :
    kerOut x W bias = refOut x W bias := by
  choose xr hxr using hx
  choose br hbr using hb
  choose t ht using table_real W hW
  obtain ⟨μ, hμ⟩ := centered_real W t ht
  have href : ∀ b : Fin 4096, logits (table W) x bias b
      = fun c => ((∑ k : Fin 10000, xr (ix2 b k) * t k c + br (ix1 c) : ℝ) : EReal) :=
    fun b => funext fun c => logits_real (table W) t ht x xr hxr bias br hbr b c
  have hker : ∀ b : Fin 4096, logits (centered W) x bias b
      = fun c => (((∑ k : Fin 10000, xr (ix2 b k) * t k c + br (ix1 c)) - ∑ k : Fin 10000, xr (ix2 b k) * μ k : ℝ) : EReal) := by
    intro b
    funext c
    rw [logits_real (centered W) (fun k c => t k c - μ k) hμ x xr hxr bias br hbr b c]
    refine congrArg (fun r : ℝ => (r : EReal)) ?_
    simp only [mul_sub, Finset.sum_sub_distrib]
    ring
  funext i
  simp only [kerOut, refOut, outOver]
  rw [hker, href]
  exact congrFun (softmaxAt_shift (by norm_num) _ _) _

end Cert.GroupSoftmax

end
-- ==== Proof.Finite.lean ====
/-
  From the precondition to "every input entry is a real number".

  The precondition says, of each of the three float inputs, that the absolute value of every entry is strictly below
  plus infinity, all of these anded together into one bit that is 1. An "and" of bits is 1 only when both are; an
  and-reduce over every axis that came out 1 met only 1s; and an extended real whose absolute value `max y (−y)`
  is strictly below the top is neither infinity, hence a real number.
-/
import proofs.«118734_j25331717111832_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Idealize.ShloMosaic.ValueIdx

/-- The word of plus infinity is the top of the extended reals. -/
theorem posInf_eq_top : Ideal.ofBits .f32 0x7F800000#32 = (⊤ : EReal) := by
  simp [Ideal.ofBits, Ideal.ieee]

/-- An extended real whose absolute value is strictly below the top is a real number: at either infinity the
    absolute value is the top itself. -/
theorem real_of_abs_lt_top (y : EReal) (h : max y (-y) < ⊤) : ∃ r : ℝ, y = (r : EReal) := by
  induction y using EReal.rec with
  | bot => exact absurd h (by rw [EReal.neg_bot, max_eq_right bot_le]; exact lt_irrefl _)
  | coe r => exact ⟨r, rfl⟩
  | top => exact absurd h (by rw [EReal.neg_top, max_eq_left bot_le]; exact lt_irrefl _)

/-- One entry: if the comparison "|y| < +inf" gives the bit 1 then `y` is a real number. -/
theorem real_of_bit (y : Ideal .f32)
    (h : FloatOps.cmpf (F := Ideal) .olt (FloatOps.hostAbsf y) (FloatOps.ofBits .f32 0x7F800000#32) = 1#1) :
    ∃ r : ℝ, y = (r : EReal) := by
  rw [Ideal.cmpf_def, Ideal.hostAbsf_def, Ideal.absf_def, Ideal.ofBits_def, posInf_eq_top] at h
  by_cases hlt : max y (-y) < (⊤ : EReal)
  · exact real_of_abs_lt_top y hlt
  · exfalso
    have h' : BitVec.ofBool (decide (max y (-y) < (⊤ : EReal))) = 1#1 := h
    rw [decide_eq_false hlt] at h'
    exact absurd h' (by decide)

/-- A whole array, of any shape: if every entry's comparison against the broadcast word of plus infinity gives 1, every
    entry is a real number. -/
theorem all_real {s : Shape} (hb : S_.BroadcastsInDim s (![] : Fin 0 → Fin s.rank)) (x : FVec Ideal s .f32)
    (h : ∀ i, cmpf (F := Ideal) .olt (Host.absf x) (broadcastInDim s ![] hb (constant (F := Ideal) S_ .f32 0x7F800000#32)) i = 1#1) :
    ∀ i, ∃ r : ℝ, x i = (r : EReal) :=
  fun i => real_of_bit (x i) (h i)

/-- The scalar shape has one index. -/
instance subsingleton_scalar : Subsingleton S_.Idx := ⟨fun a b => funext fun d => d.elim0⟩

/-- The precondition decoded: every entry of the three inputs is a real number. -/
theorem finite_of_pre [Cert.Pre_finite_inputs.Facts]
    (x0 : FVec Ideal Cert.Pre_finite_inputs.S4096x10000 .f32) (x1 : FVec Ideal Cert.Pre_finite_inputs.S10000x1000 .f32) (x2 : FVec Ideal Cert.Pre_finite_inputs.S1000 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  unfold Cert.Pre_finite_inputs.fn at h0
  simp only [andi] at h0
  rw [IntOp.andi_eq_one, IntOp.andi_eq_one] at h0
  obtain ⟨⟨hA, hB⟩, hC⟩ := h0
  exact ⟨all_real Facts.bcast_S_S4096x10000 x0 (Host.reduce_andi_all _ _ _ _ _ hA),
    all_real Facts.bcast_S_S10000x1000 x1 (Host.reduce_andi_all _ _ _ _ _ hB),
    all_real Facts.bcast_S_S1000 x2 (Host.reduce_andi_all _ _ _ _ _ hC)⟩

end Cert.Pre_finite_inputs.Finite

end
-- ==== Proof.lean ====
/-
  The certificate of one kernel against its reference, at the ideal values.

  Both programs take a batch `x` (4096 × 10000), weights `W` (10000 × 1000, read as 100 groups of 100 rows) and a bias
  (1000). Inside each group and column the weights go through a softmax over the group's 100 rows; `log (· + ε)` of
  that is a table `L`. The reference returns the softmax over the columns of `x · L + bias`. The kernel first replaces
  every table row `L k` by `L k − mean (L k)`, so its logits are the reference's less `d b = Σ_k x b k · mean (L k)`, a
  number that does not depend on the column; a softmax subtracts its row's maximum before exponentiating, so the
  shift cancels. The cancellation is arithmetic of real numbers: the inputs are finite by the precondition, and the
  table is finite because an exponential of a real is positive, a sum of positives is positive, their quotient plus a
  nonnegative ε is positive, and the logarithm of a positive real is real.

  The kernel side reads the two pipelined regions' arrays off the generated frame (each block a point writes back is
  the block of one whole-array function, and the blocks tile the array); the reference side reads the generated run
  one operation at a time; the precondition gives the finiteness; one algebraic law joins the two.
-/
import proofs.«118734_j25331717111832_2_alg».proof.Defs
import proofs.«118734_j25331717111832_2_alg».proof.Proof.Gen.Kernel
import proofs.«118734_j25331717111832_2_alg».proof.Proof.Gen.Kernel.Skeleton
import proofs.«118734_j25331717111832_2_alg».proof.Proof.Gen.Kernel.Launch
import proofs.«118734_j25331717111832_2_alg».proof.Proof.Gen.Kernel.Points
import proofs.«118734_j25331717111832_2_alg».proof.Proof.Gen.Kernel.Frame
import proofs.«118734_j25331717111832_2_alg».proof.Proof.Gen.KernelIdeal
import proofs.«118734_j25331717111832_2_alg».proof.Proof.Gen.KernelIdeal.Skeleton
import proofs.«118734_j25331717111832_2_alg».proof.Proof.Gen.KernelIdeal.Launch
import proofs.«118734_j25331717111832_2_alg».proof.Proof.Gen.KernelIdeal.Points
import proofs.«118734_j25331717111832_2_alg».proof.Proof.Gen.KernelIdeal.Frame
import proofs.«118734_j25331717111832_2_alg».proof.Proof.Gen.ReferenceIdeal
import proofs.«118734_j25331717111832_2_alg».proof.Proof.Gen.Pre_finite_inputs
import proofs.«118734_j25331717111832_2_alg».proof.Proof.Gen.ReferenceIdeal.Run
import proofs.«118734_j25331717111832_2_alg».proof.Proof.Gen.ReferenceIdeal.Read
import proofs.«118734_j25331717111832_2_alg».proof.Proof.KFinal
import proofs.«118734_j25331717111832_2_alg».proof.Proof.RefValue
import proofs.«118734_j25331717111832_2_alg».proof.Proof.Law
import proofs.«118734_j25331717111832_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at one array: the kernel's function of the arguments, which on finite arguments is the
    reference's. -/
theorem algebraic : Cert.algebraic_KernelIdeal_ReferenceIdeal := by
  intro m ρ m' ρ' hpre hagree
  refine ⟨fun c => Cert.GroupSoftmax.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.val_out_eq, (hagree c).1, (hagree c).2.1, (hagree c).2.2]
  obtain ⟨h0, h1, h2⟩ := Cert.Pre_finite_inputs.Finite.finite_of_pre _ _ _ (hpre c)
  exact (Cert.GroupSoftmax.kerOut_eq_refOut _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
